-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S16384x5x1 : S_.BroadcastsInDim S16384x5x1 (![] : Fin 0 → Fin S16384x5x1.rank)
  reducesTo_S16384x5x1_S_d0_1_2 : S16384x5x1.ReducesTo [0, 1, 2] S_
  bcast_S_S16384x5x5 : S_.BroadcastsInDim S16384x5x5 (![] : Fin 0 → Fin S16384x5x5.rank)
  reducesTo_S16384x5x5_S_d0_1_2 : S16384x5x5.ReducesTo [0, 1, 2] S_
  bcast_S_S16384x1x5 : S_.BroadcastsInDim S16384x1x5 (![] : Fin 0 → Fin S16384x1x5.rank)
  reducesTo_S16384x1x5_S_d0_1_2 : S16384x1x5.ReducesTo [0, 1, 2] S_
  bcast_S_S16384x1x1 : S_.BroadcastsInDim S16384x1x1 (![] : Fin 0 → Fin S16384x1x1.rank)
  reducesTo_S16384x1x1_S_d0_1_2 : S16384x1x1.ReducesTo [0, 1, 2] S_

variable [Facts]

def fn_part1 {F : FTy → Type} [FloatOps F] (main_arg4 : FVec F S16384x5x1 .f32) (main_arg5 : FVec F S16384x1x5 .f32) (main_arg6 : FVec F S16384x1x1 .f32) (main_v13 : IVec S_ 1) (main_v16 : IVec S16384x5x5 1) : IVec S_ 1 :=
  let main_c_5 : IVec S_ 1 := constantI S_ 1 1#1
  let main_v17 : IVec S_ 1 := (fun x v => Host.reduce IntOp.andi x v reducesTo_S16384x5x5_S_d0_1_2 h_S_) main_v16 main_c_5
  let main_v18 : IVec S_ 1 := andi main_v13 main_v17
  let main_v19 : FVec F S16384x5x1 .f32 := Host.absf main_arg4
  let main_cst_6 : FVec F S_ .f32 := constant S_ .f32 0x7F800000#32
  let main_v20 : FVec F S16384x5x1 .f32 := broadcastInDim S16384x5x1 ![] bcast_S_S16384x5x1 main_cst_6
  let main_v21 : IVec S16384x5x1 1 := cmpf .olt main_v19 main_v20
  let main_c_7 : IVec S_ 1 := constantI S_ 1 1#1
  let main_v22 : IVec S_ 1 := (fun x v => Host.reduce IntOp.andi x v reducesTo_S16384x5x1_S_d0_1_2 h_S_) main_v21 main_c_7
  let main_v23 : IVec S_ 1 := andi main_v18 main_v22
  let main_v24 : FVec F S16384x1x5 .f32 := Host.absf main_arg5
  let main_cst_8 : FVec F S_ .f32 := constant S_ .f32 0x7F800000#32
  let main_v25 : FVec F S16384x1x5 .f32 := broadcastInDim S16384x1x5 ![] bcast_S_S16384x1x5 main_cst_8
  let main_v26 : IVec S16384x1x5 1 := cmpf .olt main_v24 main_v25
  let main_c_9 : IVec S_ 1 := constantI S_ 1 1#1
  let main_v27 : IVec S_ 1 := (fun x v => Host.reduce IntOp.andi x v reducesTo_S16384x1x5_S_d0_1_2 h_S_) main_v26 main_c_9
  let main_v28 : IVec S_ 1 := andi main_v23 main_v27
  let main_v29 : FVec F S16384x1x1 .f32 := Host.absf main_arg6
  let main_cst_10 : FVec F S_ .f32 := constant S_ .f32 0x7F800000#32
  let main_v30 : FVec F S16384x1x1 .f32 := broadcastInDim S16384x1x1 ![] bcast_S_S16384x1x1 main_cst_10
  let main_v31 : IVec S16384x1x1 1 := cmpf .olt main_v29 main_v30
  let main_c_11 : IVec S_ 1 := constantI S_ 1 1#1
  let main_v32 : IVec S_ 1 := (fun x v => Host.reduce IntOp.andi x v reducesTo_S16384x1x1_S_d0_1_2 h_S_) main_v31 main_c_11
  let main_v33 : IVec S_ 1 := andi main_v28 main_v32
  main_v33

def fn {F : FTy → Type} [FloatOps F] (main_arg0 : FVec F S2048x128 .f32) (main_arg1 : FVec F S16384x5x1 .f32) (main_arg2 : FVec F S16384x5x1 .f32) (main_arg3 : FVec F S16384x5x5 .f32) (main_arg4 : FVec F S16384x5x1 .f32) (main_arg5 : FVec F S16384x1x5 .f32) (main_arg6 : FVec F S16384x1x1 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S16384x5x1 .f32 := Host.absf main_arg1
  let main_cst_0 : FVec F S_ .f32 := constant S_ .f32 0x7F800000#32
  let main_v5 : FVec F S16384x5x1 .f32 := broadcastInDim S16384x5x1 ![] bcast_S_S16384x5x1 main_cst_0
  let main_v6 : IVec S16384x5x1 1 := cmpf .olt main_v4 main_v5
  let main_c_1 : IVec S_ 1 := constantI S_ 1 1#1
  let main_v7 : IVec S_ 1 := (fun x v => Host.reduce IntOp.andi x v reducesTo_S16384x5x1_S_d0_1_2 h_S_) main_v6 main_c_1
  let main_v8 : IVec S_ 1 := andi main_v3 main_v7
  let main_v9 : FVec F S16384x5x1 .f32 := Host.absf main_arg2
  let main_cst_2 : FVec F S_ .f32 := constant S_ .f32 0x7F800000#32
  let main_v10 : FVec F S16384x5x1 .f32 := broadcastInDim S16384x5x1 ![] bcast_S_S16384x5x1 main_cst_2
  let main_v11 : IVec S16384x5x1 1 := cmpf .olt main_v9 main_v10
  let main_c_3 : IVec S_ 1 := constantI S_ 1 1#1
  let main_v12 : IVec S_ 1 := (fun x v => Host.reduce IntOp.andi x v reducesTo_S16384x5x1_S_d0_1_2 h_S_) main_v11 main_c_3
  let main_v13 : IVec S_ 1 := andi main_v8 main_v12
  let main_v14 : FVec F S16384x5x5 .f32 := Host.absf main_arg3
  let main_cst_4 : FVec F S_ .f32 := constant S_ .f32 0x7F800000#32
  let main_v15 : FVec F S16384x5x5 .f32 := broadcastInDim S16384x5x5 ![] bcast_S_S16384x5x5 main_cst_4
  let main_v16 : IVec S16384x5x5 1 := cmpf .olt main_v14 main_v15
  fn_part1 (F := F) main_arg4 main_arg5 main_arg6 main_v13 main_v16
-- ==== Kernel.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x2048 : Shape := ⟨2, ![128, 2048]⟩
abbrev S128x2048x1 : Shape := ⟨3, ![128, 2048, 1]⟩
abbrev S16384x5 : Shape := ⟨2, ![16384, 5]⟩
abbrev S128x128x5 : Shape := ⟨3, ![128, 128, 5]⟩
abbrev S128x5x128 : Shape := ⟨3, ![128, 5, 128]⟩
abbrev S128x128x5x5 : Shape := ⟨4, ![128, 128, 5, 5]⟩
abbrev S128x5x5x128 : Shape := ⟨4, ![128, 5, 5, 128]⟩
abbrev S16384 : Shape := ⟨1, ![16384]⟩
abbrev S128x128 : Shape := ⟨2, ![128, 128]⟩
abbrev S128x1x128 : Shape := ⟨3, ![128, 1, 128]⟩
abbrev S4x1024x1 : Shape := ⟨3, ![4, 1024, 1]⟩
abbrev S4x5x128 : Shape := ⟨3, ![4, 5, 128]⟩
abbrev S4x5x5x128 : Shape := ⟨4, ![4, 5, 5, 128]⟩
abbrev S4x1x128 : Shape := ⟨3, ![4, 1, 128]⟩
abbrev S1024x128 : Shape := ⟨2, ![1024, 128]⟩
abbrev S256x128 : Shape := ⟨2, ![256, 128]⟩
abbrev S1x1024x1 : Shape := ⟨3, ![1, 1024, 1]⟩
abbrev S1024x1 : Shape := ⟨2, ![1024, 1]⟩
abbrev S256x1 : Shape := ⟨2, ![256, 1]⟩
abbrev S1x5x128 : Shape := ⟨3, ![1, 5, 128]⟩
abbrev S5x128 : Shape := ⟨2, ![5, 128]⟩
abbrev S1x5x5x128 : Shape := ⟨4, ![1, 5, 5, 128]⟩
abbrev S5x5x128 : Shape := ⟨3, ![5, 5, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 27
  | .vmem => 16
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x2048, .f32⟩
  | .hbm, ⟨8, _⟩ => ⟨S128x2048x1, .f32⟩
  | .hbm, ⟨9, _⟩ => ⟨S16384x5, .f32⟩
  | .hbm, ⟨10, _⟩ => ⟨S128x128x5, .f32⟩
  | .hbm, ⟨11, _⟩ => ⟨S128x5x128, .f32⟩
  | .hbm, ⟨12, _⟩ => ⟨S16384x5, .f32⟩
  | .hbm, ⟨13, _⟩ => ⟨S128x128x5, .f32⟩
  | .hbm, ⟨14, _⟩ => ⟨S128x5x128, .f32⟩
  | .hbm, ⟨15, _⟩ => ⟨S128x128x5x5, .f32⟩
  | .hbm, ⟨16, _⟩ => ⟨S128x5x5x128, .f32⟩
  | .hbm, ⟨17, _⟩ => ⟨S16384x5, .f32⟩
  | .hbm, ⟨18, _⟩ => ⟨S128x128x5, .f32⟩
  | .hbm, ⟨19, _⟩ => ⟨S128x5x128, .f32⟩
  | .hbm, ⟨20, _⟩ => ⟨S16384x5, .f32⟩
  | .hbm, ⟨21, _⟩ => ⟨S128x128x5, .f32⟩
  | .hbm, ⟨22, _⟩ => ⟨S128x5x128, .f32⟩
  | .hbm, ⟨23, _⟩ => ⟨S16384, .f32⟩
  | .hbm, ⟨24, _⟩ => ⟨S128x128, .f32⟩
  | .hbm, ⟨25, _⟩ => ⟨S128x1x128, .f32⟩
  | .hbm, ⟨26, _⟩ => ⟨S2048x128, .f32⟩
  | .local _ .vmem, ⟨0, _⟩ => ⟨S4x1024x1, .f32⟩
  | .local _ .vmem, ⟨1, _⟩ => ⟨S4x1024x1, .f32⟩
  | .local _ .vmem, ⟨2, _⟩ => ⟨S4x5x128, .f32⟩
  | .local _ .vmem, ⟨3, _⟩ => ⟨S4x5x128, .f32⟩
  | .local _ .vmem, ⟨4, _⟩ => ⟨S4x5x5x128, .f32⟩
  | .local _ .vmem, ⟨5, _⟩ => ⟨S4x5x5x128, .f32⟩
  | .local _ .vmem, ⟨6, _⟩ => ⟨S4x5x128, .f32⟩
  | .local _ .vmem, ⟨7, _⟩ => ⟨S4x5x128, .f32⟩
  | .local _ .vmem, ⟨8, _⟩ => ⟨S4x5x128, .f32⟩
  | .local _ .vmem, ⟨9, _⟩ => ⟨S4x5x128, .f32⟩
  | .local _ .vmem, ⟨10, _⟩ => ⟨S4x5x128, .f32⟩
  | .local _ .vmem, ⟨11, _⟩ => ⟨S4x5x128, .f32⟩
  | .local _ .vmem, ⟨12, _⟩ => ⟨S4x1x128, .f32⟩
  | .local _ .vmem, ⟨13, _⟩ => ⟨S4x1x128, .f32⟩
  | .local _ .vmem, ⟨14, _⟩ => ⟨S1024x128, .f32⟩
  | .local _ .vmem, ⟨15, _⟩ => ⟨S1024x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  v4
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  let v5 : BitVec 32 := v4
  let v9 : Index := Scalar.indexCast v5
  let c0 : Index := 0#32
  ![v9.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v4 : BitVec 32 := Scalar.muli arg10 c256_i32
  let v5 : BitVec 32 := v4
  let v1211 : Index := Scalar.indexCast v5
  let c0_89 : Index := 0#32
  ![v1211.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x5x5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x5x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x5x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x5x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S2048x128_S128x2048_1_0 : S2048x128.Transposes [1, 0] S128x2048
  shapeCasts_S128x2048_S128x2048x1 : S128x2048.ShapeCasts S128x2048x1
  shapeCasts_S16384x5x1_S16384x5 : S16384x5x1.ShapeCasts S16384x5
  shapeCasts_S16384x5_S128x128x5 : S16384x5.ShapeCasts S128x128x5
  transposes_S128x128x5_S128x5x128_0_2_1 : S128x128x5.Transposes [0, 2, 1] S128x5x128
  shapeCasts_S16384x1x5_S16384x5 : S16384x1x5.ShapeCasts S16384x5
  shapeCasts_S16384x5x5_S128x128x5x5 : S16384x5x5.ShapeCasts S128x128x5x5
  transposes_S128x128x5x5_S128x5x5x128_0_2_3_1 : S128x128x5x5.Transposes [0, 2, 3, 1] S128x5x5x128
  shapeCasts_S16384x1x1_S16384 : S16384x1x1.ShapeCasts S16384
  shapeCasts_S16384_S128x128 : S16384.ShapeCasts S128x128
  bcast_S128x128_S128x1x128_0_2 : S128x128.BroadcastsInDim S128x1x128 (![0, 2] : Fin 2 → Fin S128x1x128.rank)
  inb_S1024x128_S1024x128_0_0 : ∀ a, (![0, 0] : Fin 2 → Nat) a + S1024x128.size a ≤ S1024x128.size a
  h_S1024x128 : 0 < S1024x128.numel
  inb_S4x1024x1_S1x1024x1_0_0_0 : ∀ a, (![0, 0, 0] : Fin 3 → Nat) a + S1x1024x1.size a ≤ S4x1024x1.size a
  squeezes_S1x1024x1_S1024x1 : S1x1024x1.Squeezes S1024x1
  h_S256x1 : 0 < S256x1.numel
  shapeCasts_S256x1_S256x1 : S256x1.ShapeCasts S256x1
  inb_S4x5x128_S1x5x128_0_0_0 : ∀ a, (![0, 0, 0] : Fin 3 → Nat) a + S1x5x128.size a ≤ S4x5x128.size a
  h_S1x5x128 : 0 < S1x5x128.numel
  shapeCasts_S1x5x128_S5x128 : S1x5x128.ShapeCasts S5x128
  inb_S4x5x5x128_S1x5x5x128_0_0_0_0 : ∀ a, (![0, 0, 0, 0] : Fin 4 → Nat) a + S1x5x5x128.size a ≤ S4x5x5x128.size a
  h_S1x5x5x128 : 0 < S1x5x5x128.numel
  shapeCasts_S1x5x5x128_S5x5x128 : S1x5x5x128.ShapeCasts S5x5x128
  inb_S4x1x128_S1x1x128_0_0_0 : ∀ a, (![0, 0, 0] : Fin 3 → Nat) a + S1x1x128.size a ≤ S4x1x128.size a
  h_S1x1x128 : 0 < S1x1x128.numel
  shapeCasts_S1x1x128_S128 : S1x1x128.ShapeCasts S128
  slices_S5x128_o0_0_S1x128 : S5x128.Slices ![0, 0] S1x128
  shapeCasts_S1x128_S128 : S1x128.ShapeCasts S128
  shapeCasts_S128_S1x128 : S128.ShapeCasts S1x128
  broadcasts_S256x1_S256x128 : S256x1.Broadcasts S256x128
  broadcasts_S1x128_S256x128 : S1x128.Broadcasts S256x128
  slices_S5x128_o1_0_S1x128 : S5x128.Slices ![1, 0] S1x128
  slices_S5x128_o2_0_S1x128 : S5x128.Slices ![2, 0] S1x128
  slices_S5x128_o3_0_S1x128 : S5x128.Slices ![3, 0] S1x128
  slices_S5x128_o4_0_S1x128 : S5x128.Slices ![4, 0] S1x128
  shapeCasts_S1x128_S1x128 : S1x128.ShapeCasts S1x128
  slices_S5x5x128_o0_0_0_S1x1x128 : S5x5x128.Slices ![0, 0, 0] S1x1x128
  slices_S5x5x128_o0_1_0_S1x1x128 : S5x5x128.Slices ![0, 1, 0] S1x1x128
  slices_S5x5x128_o0_2_0_S1x1x128 : S5x5x128.Slices ![0, 2, 0] S1x1x128
  slices_S5x5x128_o0_3_0_S1x1x128 : S5x5x128.Slices ![0, 3, 0] S1x1x128
  slices_S5x5x128_o0_4_0_S1x1x128 : S5x5x128.Slices ![0, 4, 0] S1x1x128
  slices_S5x5x128_o1_0_0_S1x1x128 : S5x5x128.Slices ![1, 0, 0] S1x1x128
  slices_S5x5x128_o1_1_0_S1x1x128 : S5x5x128.Slices ![1, 1, 0] S1x1x128
  slices_S5x5x128_o1_2_0_S1x1x128 : S5x5x128.Slices ![1, 2, 0] S1x1x128
  slices_S5x5x128_o1_3_0_S1x1x128 : S5x5x128.Slices ![1, 3, 0] S1x1x128
  slices_S5x5x128_o1_4_0_S1x1x128 : S5x5x128.Slices ![1, 4, 0] S1x1x128
  slices_S5x5x128_o2_0_0_S1x1x128 : S5x5x128.Slices ![2, 0, 0] S1x1x128
  slices_S5x5x128_o2_1_0_S1x1x128 : S5x5x128.Slices ![2, 1, 0] S1x1x128
  slices_S5x5x128_o2_2_0_S1x1x128 : S5x5x128.Slices ![2, 2, 0] S1x1x128
  slices_S5x5x128_o2_3_0_S1x1x128 : S5x5x128.Slices ![2, 3, 0] S1x1x128
  slices_S5x5x128_o2_4_0_S1x1x128 : S5x5x128.Slices ![2, 4, 0] S1x1x128
  slices_S5x5x128_o3_0_0_S1x1x128 : S5x5x128.Slices ![3, 0, 0] S1x1x128
  slices_S5x5x128_o3_1_0_S1x1x128 : S5x5x128.Slices ![3, 1, 0] S1x1x128
  slices_S5x5x128_o3_2_0_S1x1x128 : S5x5x128.Slices ![3, 2, 0] S1x1x128
  slices_S5x5x128_o3_3_0_S1x1x128 : S5x5x128.Slices ![3, 3, 0] S1x1x128
  slices_S5x5x128_o3_4_0_S1x1x128 : S5x5x128.Slices ![3, 4, 0] S1x1x128
  slices_S5x5x128_o4_0_0_S1x1x128 : S5x5x128.Slices ![4, 0, 0] S1x1x128
  slices_S5x5x128_o4_1_0_S1x1x128 : S5x5x128.Slices ![4, 1, 0] S1x1x128
  slices_S5x5x128_o4_2_0_S1x1x128 : S5x5x128.Slices ![4, 2, 0] S1x1x128
  slices_S5x5x128_o4_3_0_S1x1x128 : S5x5x128.Slices ![4, 3, 0] S1x1x128
  slices_S5x5x128_o4_4_0_S1x1x128 : S5x5x128.Slices ![4, 4, 0] S1x1x128
  inb_S4x1024x1_S1x1024x1_1_0_0 : ∀ a, (![1, 0, 0] : Fin 3 → Nat) a + S1x1024x1.size a ≤ S4x1024x1.size a
  inb_S4x5x128_S1x5x128_1_0_0 : ∀ a, (![1, 0, 0] : Fin 3 → Nat) a + S1x5x128.size a ≤ S4x5x128.size a
  inb_S4x5x5x128_S1x5x5x128_1_0_0_0 : ∀ a, (![1, 0, 0, 0] : Fin 4 → Nat) a + S1x5x5x128.size a ≤ S4x5x5x128.size a
  inb_S4x1x128_S1x1x128_1_0_0 : ∀ a, (![1, 0, 0] : Fin 3 → Nat) a + S1x1x128.size a ≤ S4x1x128.size a
  inb_S4x1024x1_S1x1024x1_2_0_0 : ∀ a, (![2, 0, 0] : Fin 3 → Nat) a + S1x1024x1.size a ≤ S4x1024x1.size a
  inb_S4x5x128_S1x5x128_2_0_0 : ∀ a, (![2, 0, 0] : Fin 3 → Nat) a + S1x5x128.size a ≤ S4x5x128.size a
  inb_S4x5x5x128_S1x5x5x128_2_0_0_0 : ∀ a, (![2, 0, 0, 0] : Fin 4 → Nat) a + S1x5x5x128.size a ≤ S4x5x5x128.size a
  inb_S4x1x128_S1x1x128_2_0_0 : ∀ a, (![2, 0, 0] : Fin 3 → Nat) a + S1x1x128.size a ≤ S4x1x128.size a
  inb_S4x1024x1_S1x1024x1_3_0_0 : ∀ a, (![3, 0, 0] : Fin 3 → Nat) a + S1x1024x1.size a ≤ S4x1024x1.size a
  inb_S4x5x128_S1x5x128_3_0_0 : ∀ a, (![3, 0, 0] : Fin 3 → Nat) a + S1x5x128.size a ≤ S4x5x128.size a
  inb_S4x5x5x128_S1x5x5x128_3_0_0_0 : ∀ a, (![3, 0, 0, 0] : Fin 4 → Nat) a + S1x5x5x128.size a ≤ S4x5x5x128.size a
  inb_S4x1x128_S1x1x128_3_0_0 : ∀ a, (![3, 0, 0] : Fin 3 → Nat) a + S1x1x128.size a ≤ S4x1x128.size a
  h_S256x128 : 0 < S256x128.numel
  shapeCasts_S256x128_S256x128 : S256x128.ShapeCasts S256x128
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1.size a ≤ S1024x1.size a
  k0_off2_inb : ∀ k0_t1 : Fin k0_t1_loop.trips, ∀ a, (k0_off2 k0_t1) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x1.size a ≤ S128x2048x1.size a
  hwx0_0 : ∀ i : grid0.Coords, EltTy.bits .f32 = 32 ∨ (Rect.block (s := S128x2048x1) S4x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5x128.size a ≤ S128x5x128.size a
  hwx0_1 : ∀ i : grid0.Coords, EltTy.bits .f32 = 32 ∨ (Rect.block (s := S128x5x128) S4x5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x5x5x128.size a ≤ S128x5x5x128.size a
  hwx0_2 : ∀ i : grid0.Coords, EltTy.bits .f32 = 32 ∨ (Rect.block (s := S128x5x5x128) S4x5x5x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x5x128.size a ≤ S128x5x128.size a
  hwx0_3 : ∀ i : grid0.Coords, EltTy.bits .f32 = 32 ∨ (Rect.block (s := S128x5x128) S4x5x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x5x128.size a ≤ S128x5x128.size a
  hwx0_4 : ∀ i : grid0.Coords, EltTy.bits .f32 = 32 ∨ (Rect.block (s := S128x5x128) S4x5x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x5x128.size a ≤ S128x5x128.size a
  hwx0_5 : ∀ i : grid0.Coords, EltTy.bits .f32 = 32 ∨ (Rect.block (s := S128x5x128) S4x5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1x128.size a ≤ S128x1x128.size a
  hwx0_6 : ∀ i : grid0.Coords, EltTy.bits .f32 = 32 ∨ (Rect.block (s := S128x1x128) S4x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S2048x128.size a
  hwx0_7 : ∀ i : grid0.Coords, EltTy.bits .f32 = 32 ∨ (Rect.block (s := S2048x128) S1024x128.size (cc0_transform_7 i) (hinb0_7 i)).WholeWords (EltTy.packing .f32)

variable [Facts₀]

abbrev win0_0 : Pipeline.Window sig grid0 :=
  Pipeline.Window.ofSpec (Memref.whole main_v1) S4x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x5x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x5x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x5x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4x5x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S4x5x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x128 : Shape := ⟨2, ![2048, 128]⟩
abbrev S16384x5x1 : Shape := ⟨3, ![16384, 5, 1]⟩
abbrev S16384x5x5 : Shape := ⟨3, ![16384, 5, 5]⟩
abbrev S16384x1x5 : Shape := ⟨3, ![16384, 1, 5]⟩
abbrev S16384x1x1 : Shape := ⟨3, ![16384, 1, 1]⟩
abbrev S128x2048 : Shape := ⟨2, ![128, 2048]⟩
abbrev S128x128x2048 : Shape := ⟨3, ![128, 128, 2048]⟩
abbrev S16384x2048 : Shape := ⟨2, ![16384, 2048]⟩
abbrev S16384x1x2048 : Shape := ⟨3, ![16384, 1, 2048]⟩
abbrev S16384x5x2048 : Shape := ⟨3, ![16384, 5, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S16384x5x1, .f32⟩
  | .hbm, ⟨2, _⟩ => ⟨S16384x5x1, .f32⟩
  | .hbm, ⟨3, _⟩ => ⟨S16384x5x5, .f32⟩
  | .hbm, ⟨4, _⟩ => ⟨S16384x5x1, .f32⟩
  | .hbm, ⟨5, _⟩ => ⟨S16384x1x5, .f32⟩
  | .hbm, ⟨6, _⟩ => ⟨S16384x1x1, .f32⟩
  | .hbm, ⟨7, _⟩ => ⟨S128x2048, .f32⟩
  | .hbm, ⟨8, _⟩ => ⟨S128x128x2048, .f32⟩
  | .hbm, ⟨9, _⟩ => ⟨S16384x2048, .f32⟩
  | .hbm, ⟨10, _⟩ => ⟨S16384x1x2048, .f32⟩
  | .hbm, ⟨11, _⟩ => ⟨S16384x5x2048, .f32⟩
  | .hbm, ⟨12, _⟩ => ⟨S16384x5x2048, .f32⟩
  | .hbm, ⟨13, _⟩ => ⟨S16384x5x2048, .f32⟩
  | .hbm, ⟨14, _⟩ => ⟨S16384x5x2048, .f32⟩
  | .hbm, ⟨15, _⟩ => ⟨S16384x5x2048, .f32⟩
  | .hbm, ⟨16, _⟩ => ⟨S_, .f32⟩
  | .hbm, ⟨17, _⟩ => ⟨S16384x5x2048, .f32⟩
  | .hbm, ⟨18, _⟩ => ⟨S16384x5x2048, .f32⟩
  | .hbm, ⟨19, _⟩ => ⟨S_, .f32⟩
  | .hbm, ⟨20, _⟩ => ⟨S16384x5x2048, .f32⟩
  | .hbm, ⟨21, _⟩ => ⟨S16384x5x2048, .f32⟩
  | .hbm, ⟨22, _⟩ => ⟨S16384x5x2048, .f32⟩
  | .hbm, ⟨23, _⟩ => ⟨S16384x5x2048, .f32⟩
  | .hbm, ⟨24, _⟩ => ⟨S16384x5x2048, .f32⟩
  | .hbm, ⟨25, _⟩ => ⟨S16384x5x2048, .f32⟩
  | .hbm, ⟨26, _⟩ => ⟨S16384x5x2048, .f32⟩
  | .hbm, ⟨27, _⟩ => ⟨S16384x5x2048, .f32⟩
  | .hbm, ⟨28, _⟩ => ⟨S_, .f32⟩
  | .hbm, ⟨29, _⟩ => ⟨S16384x5x2048, .f32⟩
  | .hbm, ⟨30, _⟩ => ⟨S16384x5x2048, .f32⟩
  | .hbm, ⟨31, _⟩ => ⟨S_, .f32⟩
  | .hbm, ⟨32, _⟩ => ⟨S16384x5x2048, .f32⟩
  | .hbm, ⟨33, _⟩ => ⟨S16384x5x2048, .f32⟩
  | .hbm, ⟨34, _⟩ => ⟨S16384x5x2048, .f32⟩
  | .hbm, ⟨35, _⟩ => ⟨S16384x1x2048, .f32⟩
  | .hbm, ⟨36, _⟩ => ⟨S16384x1x2048, .f32⟩
  | .hbm, ⟨37, _⟩ => ⟨S16384x1x2048, .f32⟩
  | .hbm, ⟨38, _⟩ => ⟨S128x128x2048, .f32⟩
  | .hbm, ⟨39, _⟩ => ⟨S_, .f32⟩
  | .hbm, ⟨40, _⟩ => ⟨S128x2048, .f32⟩
  | .hbm, ⟨41, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩

abbrev nD : Nat := 1
abbrev τ : Topo := Topo.v7x

variable {F : FTy → Type} [FloatOps F]

class Facts₀ : Prop where
  transposes_S2048x128_S128x2048_1_0 : S2048x128.Transposes [1, 0] S128x2048
  bcast_S128x2048_S128x128x2048_0_2 : S128x2048.BroadcastsInDim S128x128x2048 (![0, 2] : Fin 2 → Fin S128x128x2048.rank)
  shapeCasts_S128x128x2048_S16384x2048 : S128x128x2048.ShapeCasts S16384x2048
  bcast_S16384x2048_S16384x1x2048_0_2 : S16384x2048.BroadcastsInDim S16384x1x2048 (![0, 2] : Fin 2 → Fin S16384x1x2048.rank)
  bcast_S16384x5x1_S16384x5x2048_0_1_2 : S16384x5x1.BroadcastsInDim S16384x5x2048 (![0, 1, 2] : Fin 3 → Fin S16384x5x2048.rank)
  bcast_S_S16384x5x2048 : S_.BroadcastsInDim S16384x5x2048 (![] : Fin 0 → Fin S16384x5x2048.rank)
  bcast_S16384x1x1_S16384x1x2048_0_1_2 : S16384x1x1.BroadcastsInDim S16384x1x2048 (![0, 1, 2] : Fin 3 → Fin S16384x1x2048.rank)
  shapeCasts_S16384x1x2048_S128x128x2048 : S16384x1x2048.ShapeCasts S128x128x2048
  reducesTo_S128x128x2048_S128x2048_d0 : S128x128x2048.ReducesTo [0] S128x2048
  h_S_ : 0 < S_.numel
  transposes_S128x2048_S2048x128_1_0 : S128x2048.Transposes [1, 0] S2048x128
  dot_S16384x5x1_S16384x1x2048_S16384x5x2048_2_1_1_2_0_0_wf : DotDims.WF S16384x5x1 S16384x1x2048 S16384x5x2048 [2] [1] [1] [2] [0] [0]
  dot_S16384x5x5_S16384x5x2048_S16384x5x2048_2_1_1_2_0_0_wf : DotDims.WF S16384x5x5 S16384x5x2048 S16384x5x2048 [2] [1] [1] [2] [0] [0]
  dot_S16384x1x5_S16384x5x2048_S16384x1x2048_2_1_1_2_0_0_wf : DotDims.WF S16384x1x5 S16384x5x2048 S16384x1x2048 [2] [1] [1] [2] [0] [0]

variable [Facts₀]

def dot_S16384x5x1_S16384x1x2048_S16384x5x2048_2_1_1_2_0_0 : DotDims S16384x5x1 S16384x1x2048 S16384x5x2048 where
  lhsContracting := [2]
  rhsContracting := [1]
  lhsNonContracting := [1]
  rhsNonContracting := [2]
  lhsBatch := [0]
  rhsBatch := [0]
  wf := dot_S16384x5x1_S16384x1x2048_S16384x5x2048_2_1_1_2_0_0_wf
def dot_S16384x5x5_S16384x5x2048_S16384x5x2048_2_1_1_2_0_0 : DotDims S16384x5x5 S16384x5x2048 S16384x5x2048 where
  lhsContracting := [2]
  rhsContracting := [1]
  lhsNonContracting := [1]
  rhsNonContracting := [2]
  lhsBatch := [0]
  rhsBatch := [0]
  wf := dot_S16384x5x5_S16384x5x2048_S16384x5x2048_2_1_1_2_0_0_wf
def dot_S16384x1x5_S16384x5x2048_S16384x1x2048_2_1_1_2_0_0 : DotDims S16384x1x5 S16384x5x2048 S16384x1x2048 where
  lhsContracting := [2]
  rhsContracting := [1]
  lhsNonContracting := [1]
  rhsNonContracting := [2]
  lhsBatch := [0]
  rhsBatch := [0]
  wf := dot_S16384x1x5_S16384x5x2048_S16384x1x2048_2_1_1_2_0_0_wf

class Facts : Prop extends Facts₀ where

variable [Facts]
-- ==== Proof.ChunkLoopIdeal.lean ====
import proofs.«141808_j22789096472783_2_alg».proof.Proof.Gen.KernelIdeal.Loops
import proofs.«141808_j22789096472783_2_alg».proof.Proof.Gen.KernelIdeal.Skeleton

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip of the chunk loop, and the loop by its invariant

A trip handles one chunk of 256 batch rows: it reads the four edges' inputs (a column of `x` per edge through a
view of the `x` block, the edges' weights and biases), and adds the four edges' outputs into the chunk's rows of
the output block, which it loads back first. The `x` block is held whole here: the four per-edge columns are
views of it. -/

section
variable (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole)
variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- What one trip works on: the seven input blocks at fixed contents, the output block at any. -/
abbrev TripRes (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9))

set_option maxHeartbeats 4000000 in
/-- ONE TRIP at a symbolic trip number: the pieces it writes into the output block are what the run finds, as a
    function of the contents the trip finds there (it loads the chunk's rows back before adding to them). -/
@[irreducible] def chunkTrip (k : Fin k0_t1_loop.trips) :
    { L : BufTy.Contents (Elt F) arg9.view.ty → List (View.Piece (Elt F) S1024x128 .f32) //
      ∀ (E : Set ℕ) (f9 : BufTy.Contents (Elt F) arg9.view.ty),
        TripRes (F := F) c arg2 arg3 arg4 arg5 arg6 arg7 arg8 arg9 X2 X3 X4 X5 X6 X7 X8 f9
        ⊢ wp frame (wpE (defs₀ (F := F)) Variants.none (c : Thread nD τ) none) E (k0_t1_body (F := F) i arg2 harg2 arg3 harg3 arg4 harg4 arg5 harg5 arg6 harg6 arg7 harg7 arg8 harg8 arg9 harg9 k PUnit.unit)
            (fun _ => TripRes (F := F) c arg2 arg3 arg4 arg5 arg6 arg7 arg8 arg9 X2 X3 X4 X5 X6 X7 X8 (arg9.view.writes (Elt F) f9 (L f9))) } := by
  have hk : k.val < 4 := Nat.lt_of_lt_of_le k.isLt k0_t1_abs.2.1
  refine ⟨?_, fun E f9 => ?run⟩
  case run =>
    unfold k0_t1_body
    iintro ⟨H2, H3, H4, H5, H6, H7, H8, H9⟩
    sl_exec
    sl_step
    sl_close

/-- The trip's pieces at the contents it finds. -/
abbrev tripPieces (k : Fin k0_t1_loop.trips) (f9 : BufTy.Contents (Elt F) arg9.view.ty) : List (View.Piece (Elt F) S1024x128 .f32) :=
  (chunkTrip (F := F) c i arg2 harg2 arg3 harg3 arg4 harg4 arg5 harg5 arg6 harg6 arg7 harg7 arg8 harg8 arg9 harg9 X2 X3 X4 X5 X6 X7 X8 k).1 f9

variable (G : BufTy.Contents (Elt F) arg9.view.ty)

/-- The pieces of the trips before `k` (last first), over the contents `G` at the loop's entry; each trip's taken
    at what the earlier trips left. -/
def piecesBefore : ℕ → List (View.Piece (Elt F) S1024x128 .f32)
  | 0 => []
  | k + 1 =>
    if h : k < k0_t1_loop.trips then
      tripPieces (F := F) c i arg2 harg2 arg3 harg3 arg4 harg4 arg5 harg5 arg6 harg6 arg7 harg7 arg8 harg8 arg9 harg9 X2 X3 X4 X5 X6 X7 X8 ⟨k, h⟩ (arg9.view.writes (Elt F) G (piecesBefore k)) ++ piecesBefore k
    else piecesBefore k

theorem piecesBefore_succ (k : Fin k0_t1_loop.trips) :
    piecesBefore (F := F) c i arg2 harg2 arg3 harg3 arg4 harg4 arg5 harg5 arg6 harg6 arg7 harg7 arg8 harg8 arg9 harg9 X2 X3 X4 X5 X6 X7 X8 G (k.val + 1)
      = tripPieces (F := F) c i arg2 harg2 arg3 harg3 arg4 harg4 arg5 harg5 arg6 harg6 arg7 harg7 arg8 harg8 arg9 harg9 X2 X3 X4 X5 X6 X7 X8 k (arg9.view.writes (Elt F) G (piecesBefore (F := F) c i arg2 harg2 arg3 harg3 arg4 harg4 arg5 harg5 arg6 harg6 arg7 harg7 arg8 harg8 arg9 harg9 X2 X3 X4 X5 X6 X7 X8 G k.val))
        ++ piecesBefore (F := F) c i arg2 harg2 arg3 harg3 arg4 harg4 arg5 harg5 arg6 harg6 arg7 harg7 arg8 harg8 arg9 harg9 X2 X3 X4 X5 X6 X7 X8 G k.val := by
  rw [piecesBefore]; exact dif_pos k.isLt

/-- Before trip `k`: the inputs as they were, the output block holding the earlier trips' pieces over `G`. -/
abbrev chunkInv (k : ℕ) (_ : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜f = arg9.view.writes (Elt F) G (piecesBefore (F := F) c i arg2 harg2 arg3 harg3 arg4 harg4 arg5 harg5 arg6 harg6 arg7 harg7 arg8 harg8 arg9 harg9 X2 X3 X4 X5 X6 X7 X8 G k)⌝))

set_option warn.classDefReducibility false in
/-- The chunk loop by its invariant. -/
@[sl_loop] def chunkLoop (E : Set ℕ) :
    LoopInvTy_k0_t1 (F := F) Unit ℕ (UR sig nD τ) ℕ Variants.none c none E i arg2 harg2 arg3 harg3 arg4 harg4 arg5 harg5 arg6 harg6 arg7 harg7 arg8 harg8 arg9 harg9 where
  inv := chunkInv (F := F) c i arg2 harg2 arg3 harg3 arg4 harg4 arg5 harg5 arg6 harg6 arg7 harg7 arg8 harg8 arg9 harg9 X2 X3 X4 X5 X6 X7 X8 G
  step k acc := by
    iintro ⟨H2, H3, H4, H5, H6, H7, H8, ⟨%f9, H9, %h9⟩⟩
    iapply (wp_wand_r Idealize.ShloMosaic.frame (wpE (defs₀ (F := F)) Variants.none (c : Thread nD τ) none) E)
    isplitl [H2 H3 H4 H5 H6 H7 H8 H9]
    · iapply ((chunkTrip (F := F) c i arg2 harg2 arg3 harg3 arg4 harg4 arg5 harg5 arg6 harg6 arg7 harg7 arg8 harg8 arg9 harg9 X2 X3 X4 X5 X6 X7 X8 k).2 E f9)
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %_ ⟨H2, H3, H4, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      rw [piecesBefore_succ]
      iexists _; isplitl [H9]; · iexact H9
      ipureintro; rw [h9, ← View.writes_append]

end

end Cert.KernelIdeal.Hand

end
-- ==== Proof.BodyRunsIdeal.lean ====
import proofs.«141808_j22789096472783_2_alg».proof.Proof.Gen.KernelIdeal.Frame
import proofs.«141808_j22789096472783_2_alg».proof.Proof.ChunkLoopIdeal
import Idealize.ShloMosaic.Lib.Pipeline.Frame

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch, and the body run in each of its two cases

The body clears the output block when the second grid coordinate (the block of four input features) is zero,
then runs the chunk loop, which adds into the block. So there are two cases: a point that starts a batch block
(the block is cleared, whatever it held) and a later point of the same batch block (the block holds what the
point before left). -/

/-- The condition of the body's one branch, from the grid coordinates: the feature-block coordinate is zero. -/
abbrev startsBlock (i : grid0.Coords) : Prop := (Scalar.cmpi .ne (Scalar.extui (Scalar.cmpi .eq (BitVec.ofNat 32 (i 1).val) 0#32)) 0#32) = 1#1

/-- It holds at the first of each batch block's 32 points — decided over the 64 points of the grid. -/
theorem startsBlock_iff : ∀ t : Fin cfg0.N, startsBlock (grid0.coords t) ↔ t.val % 32 = 0 :=
  (by decide +kernel : ∀ t : Fin grid0.N, startsBlock (grid0.coords t) ↔ t.val % 32 = 0)

set_option maxHeartbeats 4000000 in
/-- The body at a point that starts a batch block: on whole staging memrefs, the inputs' at their contents and the output's at anything, it runs to the continuation holding the inputs' as they were and the output's with the pieces the run finds written (the clearing store, then the four trips'). -/
noncomputable def runStart (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) :
    { L : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__kan_kernel i arg2 harg2 arg3 harg3 arg4 harg4 arg5 harg5 arg6 harg6 arg7 harg7 arg8 harg8 arg9 harg9) K } := by
  refine ⟨?_, fun E K => ?run⟩
  case run =>
    simp only [cc0__kan_kernel_eq_skeleton]; unfold cc0__kan_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

set_option maxHeartbeats 4000000 in
/-- The body at a later point of a batch block: the same, the output's staging memref at its running contents `xo` (the loop loads them back). -/
noncomputable def runLater (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) :
    { L : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xo
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__kan_kernel i arg2 harg2 arg3 harg3 arg4 harg4 arg5 harg5 arg6 harg6 arg7 harg7 arg8 harg8 arg9 harg9) K } := by
  refine ⟨?_, fun E K => ?run⟩
  case run =>
    simp only [cc0__kan_kernel_eq_skeleton]; unfold cc0__kan_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.KernelIdeal.Hand

end
-- ==== Proof.FrameIdeal.lean ====
import proofs.«141808_j22789096472783_2_alg».proof.Proof.BodyRunsIdeal

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each case -/

/-- One staging buffer of the output window, through which its contents are stated (where the pieces cover the
    block the choice does not matter). -/
abbrev VO : View sig .tc .vmem S1024x128 .f32 := (Memref.whole cc0_stg7_0 : Memref sig .tc .vmem S1024x128 .f32).view

/-- Each window's current staging memref at point `t`, spelled as the pipeline passes it, and its wholeness. -/
abbrev ms0 (t : Fin cfg0.N) : Memref sig .tc .vmem S4x1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x5x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x5x5x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x5x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x5x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x5x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)

/-- At a point that starts a batch block the pieces include the clearing store of the whole block, so they cover it. -/
theorem cover_start (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (y : S1024x128.Idx) :
    ∃ pc ∈ (runStart c i arg2 harg2 arg3 harg3 arg4 harg4 arg5 harg5 arg6 harg6 arg7 harg7 arg8 harg8 arg9 harg9 hc0 x2 x3 x4 x5 x6 x7 x8).1, y ∈ pc.1.set :=
  View.cover_of_wholeMem (runStart c i arg2 harg2 arg3 harg3 arg4 harg4 arg5 harg5 arg6 harg6 arg7 harg7 arg8 harg8 arg9 harg9 hc0 x2 x3 x4 x5 x6 x7 x8).1 (by sl_whole_mem) y

/-- What such a point leaves in the output block: its pieces read back over junk. -/
def blockAfterStart (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) : Vec F S1024x128 .f32 :=
  VO.read (Elt F) (VO.writes (Elt F) VO.junk (runStart c i arg2 harg2 arg3 harg3 arg4 harg4 arg5 harg5 arg6 harg6 arg7 harg7 arg8 harg8 arg9 harg9 hc0 x2 x3 x4 x5 x6 x7 x8).1)

/-- At a later point the pieces are the four trips' stores, one per chunk of 256 rows: they tile the block. -/
theorem cover_later (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) (y : S1024x128.Idx) :
    ∃ pc ∈ (runLater c i arg2 harg2 arg3 harg3 arg4 harg4 arg5 harg5 arg6 harg6 arg7 harg7 arg8 harg8 arg9 harg9 hc0 x2 x3 x4 x5 x6 x7 x8 xo).1, y ∈ pc.1.set :=
  View.cover_of_tiledL (runLater c i arg2 harg2 arg3 harg3 arg4 harg4 arg5 harg5 arg6 harg6 arg7 harg7 arg8 harg8 arg9 harg9 hc0 x2 x3 x4 x5 x6 x7 x8 xo).1 S256x128.size (by sl_kernel_rfl) y

/-- What a later point leaves in the output block, from what it found there. -/
def blockAfterLater (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) : Vec F S1024x128 .f32 :=
  VO.read (Elt F) (VO.writes (Elt F) VO.junk (runLater c i arg2 harg2 arg3 harg3 arg4 harg4 arg5 harg5 arg6 harg6 arg7 harg7 arg8 harg8 arg9 harg9 hc0 x2 x3 x4 x5 x6 x7 x8 xo).1)

/-! ## The accumulation over the grid points -/

/-- What the output's staging buffer holds after the body at position `n` of the grid: the case the point is in,
    run at the point's memrefs and input blocks; a later point of a batch block takes what the point before left
    (the buffer is not written back in between). -/
def blockAt (c : Dev nD) : (n : ℕ) → n < cfg0.N → Vec F S1024x128 .f32
  | 0, hn => blockAfterStart c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((startsBlock_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 32 = 0 then
      blockAfterStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((startsBlock_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      blockAfterLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((startsBlock_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (blockAt c n (Nat.lt_of_succ_lt hn))

theorem blockAt_start (c : Dev nD) (t : Fin cfg0.N) (h0 : t.val % 32 = 0) :
    blockAt m c t.val t.isLt = blockAfterStart c (grid0.coords t) (ms0 t) (hs0 t) (ms1 t) (hs1 t) (ms2 t) (hs2 t) (ms3 t) (hs3 t) (ms4 t) (hs4 t) (ms5 t) (hs5 t) (ms6 t) (hs6 t) (ms7 t) (hs7 t) ((startsBlock_iff t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem blockAt_later (c : Dev nD) (t : Fin cfg0.N) (h0 : ¬t.val % 32 = 0) :
    blockAt m c t.val t.isLt = blockAfterLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((startsBlock_iff t).mp h)) (iblk m c 0 t) (iblk m c 1 t) (iblk m c 2 t) (iblk m c 3 t) (iblk m c 4 t) (iblk m c 5 t) (iblk m c 6 t) (blockAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at `blockAt`; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = blockAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later point of a batch block the output's staging buffer holds what the body left at the point before:
    it is written back only at the last point of a batch block. -/
theorem before_7_later (c : Dev nD) (t : Fin cfg0.N) (h0 : ¬t.val % 32 = 0) (d) :
    (dats m 0 c).before 7 t d = blockAt m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the point either starts a batch block or is a
    later one, where the output's memref holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 32 = 0
  · rw [blockAt_start m c t h0]
    unfold blockAfterStart
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runStart c (grid0.coords t) _ _ _ _ _ _ _ _ _ _ _ _ _ _ _ _ ((startsBlock_iff t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_start c _ _ _ _ _ _ _ _ _ _ _ _ _ _ _ _ _ _ _ _ _ _ _ _ _)
  · rw [blockAt_later m c t h0]
    simp only [before_7_later m c t h0]
    unfold blockAfterLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h => h0 ((startsBlock_iff t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_later c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.ChunkLoopBits.lean ====
import proofs.«141808_j22789096472783_2_alg».proof.Proof.FrameIdeal
import proofs.«141808_j22789096472783_2_alg».proof.Proof.Gen.Kernel.Loops
import proofs.«141808_j22789096472783_2_alg».proof.Proof.Gen.Kernel.Skeleton

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip of the chunk loop, and the loop by its invariant

A trip handles one chunk of 256 batch rows: it reads the four edges' inputs (a column of `x` per edge through a
view of the `x` block, the edges' weights and biases), and adds the four edges' outputs into the chunk's rows of
the output block, which it loads back first. The `x` block is held whole here: the four per-edge columns are
views of it. -/

section
variable (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole)
variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- What one trip works on: the seven input blocks at fixed contents, the output block at any. -/
abbrev TripRes (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9))

set_option maxHeartbeats 4000000 in
/-- ONE TRIP at a symbolic trip number: the pieces it writes into the output block are what the run finds, as a
    function of the contents the trip finds there (it loads the chunk's rows back before adding to them). -/
@[irreducible] def chunkTrip (k : Fin k0_t1_loop.trips) :
    { L : BufTy.Contents (Elt F) arg9.view.ty → List (View.Piece (Elt F) S1024x128 .f32) //
      ∀ (E : Set ℕ) (f9 : BufTy.Contents (Elt F) arg9.view.ty),
        TripRes (F := F) c arg2 arg3 arg4 arg5 arg6 arg7 arg8 arg9 X2 X3 X4 X5 X6 X7 X8 f9
        ⊢ wp frame (wpE (defs₀ (F := F)) Variants.none (c : Thread nD τ) none) E (k0_t1_body (F := F) i arg2 harg2 arg3 harg3 arg4 harg4 arg5 harg5 arg6 harg6 arg7 harg7 arg8 harg8 arg9 harg9 k PUnit.unit)
            (fun _ => TripRes (F := F) c arg2 arg3 arg4 arg5 arg6 arg7 arg8 arg9 X2 X3 X4 X5 X6 X7 X8 (arg9.view.writes (Elt F) f9 (L f9))) } := by
  have hk : k.val < 4 := Nat.lt_of_lt_of_le k.isLt k0_t1_abs.2.1
  refine ⟨?_, fun E f9 => ?run⟩
  case run =>
    unfold k0_t1_body
    iintro ⟨H2, H3, H4, H5, H6, H7, H8, H9⟩
    sl_exec
    sl_step
    sl_close

/-- The trip's pieces at the contents it finds. -/
abbrev tripPieces (k : Fin k0_t1_loop.trips) (f9 : BufTy.Contents (Elt F) arg9.view.ty) : List (View.Piece (Elt F) S1024x128 .f32) :=
  (chunkTrip (F := F) c i arg2 harg2 arg3 harg3 arg4 harg4 arg5 harg5 arg6 harg6 arg7 harg7 arg8 harg8 arg9 harg9 X2 X3 X4 X5 X6 X7 X8 k).1 f9

variable (G : BufTy.Contents (Elt F) arg9.view.ty)

/-- The pieces of the trips before `k` (last first), over the contents `G` at the loop's entry; each trip's taken
    at what the earlier trips left. -/
def piecesBefore : ℕ → List (View.Piece (Elt F) S1024x128 .f32)
  | 0 => []
  | k + 1 =>
    if h : k < k0_t1_loop.trips then
      tripPieces (F := F) c i arg2 harg2 arg3 harg3 arg4 harg4 arg5 harg5 arg6 harg6 arg7 harg7 arg8 harg8 arg9 harg9 X2 X3 X4 X5 X6 X7 X8 ⟨k, h⟩ (arg9.view.writes (Elt F) G (piecesBefore k)) ++ piecesBefore k
    else piecesBefore k

theorem piecesBefore_succ (k : Fin k0_t1_loop.trips) :
    piecesBefore (F := F) c i arg2 harg2 arg3 harg3 arg4 harg4 arg5 harg5 arg6 harg6 arg7 harg7 arg8 harg8 arg9 harg9 X2 X3 X4 X5 X6 X7 X8 G (k.val + 1)
      = tripPieces (F := F) c i arg2 harg2 arg3 harg3 arg4 harg4 arg5 harg5 arg6 harg6 arg7 harg7 arg8 harg8 arg9 harg9 X2 X3 X4 X5 X6 X7 X8 k (arg9.view.writes (Elt F) G (piecesBefore (F := F) c i arg2 harg2 arg3 harg3 arg4 harg4 arg5 harg5 arg6 harg6 arg7 harg7 arg8 harg8 arg9 harg9 X2 X3 X4 X5 X6 X7 X8 G k.val))
        ++ piecesBefore (F := F) c i arg2 harg2 arg3 harg3 arg4 harg4 arg5 harg5 arg6 harg6 arg7 harg7 arg8 harg8 arg9 harg9 X2 X3 X4 X5 X6 X7 X8 G k.val := by
  rw [piecesBefore]; exact dif_pos k.isLt

/-- Before trip `k`: the inputs as they were, the output block holding the earlier trips' pieces over `G`. -/
abbrev chunkInv (k : ℕ) (_ : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, (arg9.view.loc (c : Thread nD τ) ↦[arg9.view.set]{fullShare} f) ∗ ⌜f = arg9.view.writes (Elt F) G (piecesBefore (F := F) c i arg2 harg2 arg3 harg3 arg4 harg4 arg5 harg5 arg6 harg6 arg7 harg7 arg8 harg8 arg9 harg9 X2 X3 X4 X5 X6 X7 X8 G k)⌝))

set_option warn.classDefReducibility false in
/-- The chunk loop by its invariant. -/
@[sl_loop] def chunkLoop (E : Set ℕ) :
    LoopInvTy_k0_t1 (F := F) Unit ℕ (UR sig nD τ) ℕ Variants.none c none E i arg2 harg2 arg3 harg3 arg4 harg4 arg5 harg5 arg6 harg6 arg7 harg7 arg8 harg8 arg9 harg9 where
  inv := chunkInv (F := F) c i arg2 harg2 arg3 harg3 arg4 harg4 arg5 harg5 arg6 harg6 arg7 harg7 arg8 harg8 arg9 harg9 X2 X3 X4 X5 X6 X7 X8 G
  step k acc := by
    iintro ⟨H2, H3, H4, H5, H6, H7, H8, ⟨%f9, H9, %h9⟩⟩
    iapply (wp_wand_r Idealize.ShloMosaic.frame (wpE (defs₀ (F := F)) Variants.none (c : Thread nD τ) none) E)
    isplitl [H2 H3 H4 H5 H6 H7 H8 H9]
    · iapply ((chunkTrip (F := F) c i arg2 harg2 arg3 harg3 arg4 harg4 arg5 harg5 arg6 harg6 arg7 harg7 arg8 harg8 arg9 harg9 X2 X3 X4 X5 X6 X7 X8 k).2 E f9)
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %_ ⟨H2, H3, H4, H5, H6, H7, H8, H9⟩
      isplitl [H2]; · iexact H2
      isplitl [H3]; · iexact H3
      isplitl [H4]; · iexact H4
      isplitl [H5]; · iexact H5
      isplitl [H6]; · iexact H6
      isplitl [H7]; · iexact H7
      isplitl [H8]; · iexact H8
      rw [piecesBefore_succ]
      iexists _; isplitl [H9]; · iexact H9
      ipureintro; rw [h9, ← View.writes_append]

end

end Cert.Kernel.Hand

end
-- ==== Proof.BodyRunsBits.lean ====
import proofs.«141808_j22789096472783_2_alg».proof.Proof.Gen.Kernel.Frame
import proofs.«141808_j22789096472783_2_alg».proof.Proof.ChunkLoopBits
import Idealize.ShloMosaic.Lib.Pipeline.Frame

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch, and the body run in each of its two cases

The body clears the output block when the second grid coordinate (the block of four input features) is zero,
then runs the chunk loop, which adds into the block. So there are two cases: a point that starts a batch block
(the block is cleared, whatever it held) and a later point of the same batch block (the block holds what the
point before left). -/

/-- The condition of the body's one branch, from the grid coordinates: the feature-block coordinate is zero. -/
abbrev startsBlock (i : grid0.Coords) : Prop := (Scalar.cmpi .ne (Scalar.extui (Scalar.cmpi .eq (BitVec.ofNat 32 (i 1).val) 0#32)) 0#32) = 1#1

/-- It holds at the first of each batch block's 32 points — decided over the 64 points of the grid. -/
theorem startsBlock_iff : ∀ t : Fin cfg0.N, startsBlock (grid0.coords t) ↔ t.val % 32 = 0 :=
  (by decide +kernel : ∀ t : Fin grid0.N, startsBlock (grid0.coords t) ↔ t.val % 32 = 0)

set_option maxHeartbeats 4000000 in
/-- The body at a point that starts a batch block: on whole staging memrefs, the inputs' at their contents and the output's at anything, it runs to the continuation holding the inputs' as they were and the output's with the pieces the run finds written (the clearing store, then the four trips'). -/
noncomputable def runStart (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) :
    { L : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__kan_kernel i arg2 harg2 arg3 harg3 arg4 harg4 arg5 harg5 arg6 harg6 arg7 harg7 arg8 harg8 arg9 harg9) K } := by
  refine ⟨?_, fun E K => ?run⟩
  case run =>
    simp only [cc0__kan_kernel_eq_skeleton]; unfold cc0__kan_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

set_option maxHeartbeats 4000000 in
/-- The body at a later point of a batch block: the same, the output's staging memref at its running contents `xo` (the loop loads them back). -/
noncomputable def runLater (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) :
    { L : List (View.Piece (Elt F) S1024x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xo
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__kan_kernel i arg2 harg2 arg3 harg3 arg4 harg4 arg5 harg5 arg6 harg6 arg7 harg7 arg8 harg8 arg9 harg9) K } := by
  refine ⟨?_, fun E K => ?run⟩
  case run =>
    simp only [cc0__kan_kernel_eq_skeleton]; unfold cc0__kan_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf2; obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.Kernel.Hand

end
-- ==== Proof.FrameBits.lean ====
import proofs.«141808_j22789096472783_2_alg».proof.Proof.BodyRunsBits

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each case -/

/-- One staging buffer of the output window, through which its contents are stated (where the pieces cover the
    block the choice does not matter). -/
abbrev VO : View sig .tc .vmem S1024x128 .f32 := (Memref.whole cc0_stg7_0 : Memref sig .tc .vmem S1024x128 .f32).view

/-- Each window's current staging memref at point `t`, spelled as the pipeline passes it, and its wholeness. -/
abbrev ms0 (t : Fin cfg0.N) : Memref sig .tc .vmem S4x1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x5x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x5x5x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x5x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x5x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x5x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)

/-- At a point that starts a batch block the pieces include the clearing store of the whole block, so they cover it. -/
theorem cover_start (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (y : S1024x128.Idx) :
    ∃ pc ∈ (runStart c i arg2 harg2 arg3 harg3 arg4 harg4 arg5 harg5 arg6 harg6 arg7 harg7 arg8 harg8 arg9 harg9 hc0 x2 x3 x4 x5 x6 x7 x8).1, y ∈ pc.1.set :=
  View.cover_of_wholeMem (runStart c i arg2 harg2 arg3 harg3 arg4 harg4 arg5 harg5 arg6 harg6 arg7 harg7 arg8 harg8 arg9 harg9 hc0 x2 x3 x4 x5 x6 x7 x8).1 (by sl_whole_mem) y

/-- What such a point leaves in the output block: its pieces read back over junk. -/
def blockAfterStart (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) : Vec F S1024x128 .f32 :=
  VO.read (Elt F) (VO.writes (Elt F) VO.junk (runStart c i arg2 harg2 arg3 harg3 arg4 harg4 arg5 harg5 arg6 harg6 arg7 harg7 arg8 harg8 arg9 harg9 hc0 x2 x3 x4 x5 x6 x7 x8).1)

/-- At a later point the pieces are the four trips' stores, one per chunk of 256 rows: they tile the block. -/
theorem cover_later (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) (y : S1024x128.Idx) :
    ∃ pc ∈ (runLater c i arg2 harg2 arg3 harg3 arg4 harg4 arg5 harg5 arg6 harg6 arg7 harg7 arg8 harg8 arg9 harg9 hc0 x2 x3 x4 x5 x6 x7 x8 xo).1, y ∈ pc.1.set :=
  View.cover_of_tiledL (runLater c i arg2 harg2 arg3 harg3 arg4 harg4 arg5 harg5 arg6 harg6 arg7 harg7 arg8 harg8 arg9 harg9 hc0 x2 x3 x4 x5 x6 x7 x8 xo).1 S256x128.size (by sl_kernel_rfl) y

/-- What a later point leaves in the output block, from what it found there. -/
def blockAfterLater (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (hc0 : ¬startsBlock i)
    (x2 : Vec F S4x1024x1 .f32) (x3 : Vec F S4x5x128 .f32) (x4 : Vec F S4x5x5x128 .f32) (x5 : Vec F S4x5x128 .f32) (x6 : Vec F S4x5x128 .f32) (x7 : Vec F S4x5x128 .f32) (x8 : Vec F S4x1x128 .f32) (xo : Vec F S1024x128 .f32) : Vec F S1024x128 .f32 :=
  VO.read (Elt F) (VO.writes (Elt F) VO.junk (runLater c i arg2 harg2 arg3 harg3 arg4 harg4 arg5 harg5 arg6 harg6 arg7 harg7 arg8 harg8 arg9 harg9 hc0 x2 x3 x4 x5 x6 x7 x8 xo).1)

/-! ## The accumulation over the grid points -/

/-- What the output's staging buffer holds after the body at position `n` of the grid: the case the point is in,
    run at the point's memrefs and input blocks; a later point of a batch block takes what the point before left
    (the buffer is not written back in between). -/
def blockAt (c : Dev nD) : (n : ℕ) → n < cfg0.N → Vec F S1024x128 .f32
  | 0, hn => blockAfterStart c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) ((startsBlock_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 32 = 0 then
      blockAfterStart c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) ((startsBlock_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      blockAfterLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (fun h => h0 ((startsBlock_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (blockAt c n (Nat.lt_of_succ_lt hn))

theorem blockAt_start (c : Dev nD) (t : Fin cfg0.N) (h0 : t.val % 32 = 0) :
    blockAt m c t.val t.isLt = blockAfterStart c (grid0.coords t) (ms0 t) (hs0 t) (ms1 t) (hs1 t) (ms2 t) (hs2 t) (ms3 t) (hs3 t) (ms4 t) (hs4 t) (ms5 t) (hs5 t) (ms6 t) (hs6 t) (ms7 t) (hs7 t) ((startsBlock_iff t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

theorem blockAt_later (c : Dev nD) (t : Fin cfg0.N) (h0 : ¬t.val % 32 = 0) :
    blockAt m c t.val t.isLt = blockAfterLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h0 ((startsBlock_iff t).mp h)) (iblk m c 0 t) (iblk m c 1 t) (iblk m c 2 t) (iblk m c 3 t) (iblk m c 4 t) (iblk m c 5 t) (iblk m c 6 t) (blockAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    output's at `blockAt`; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blockAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = blockAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At a later point of a batch block the output's staging buffer holds what the body left at the point before:
    it is written back only at the last point of a batch block. -/
theorem before_7_later (c : Dev nD) (t : Fin cfg0.N) (h0 : ¬t.val % 32 = 0) (d) :
    (dats m 0 c).before 7 t d = blockAt m c (t.val - 1) (Nat.lt_of_le_of_lt (Nat.sub_le _ _) t.isLt) := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- The body at any point: the inputs' memrefs hold their blocks; the point either starts a batch block or is a
    later one, where the output's memref holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  by_cases h0 : t.val % 32 = 0
  · rw [blockAt_start m c t h0]
    unfold blockAfterStart
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runStart c (grid0.coords t) _ _ _ _ _ _ _ _ _ _ _ _ _ _ _ _ ((startsBlock_iff t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_start c _ _ _ _ _ _ _ _ _ _ _ _ _ _ _ _ _ _ _ _ _ _ _ _ _)
  · rw [blockAt_later m c t h0]
    simp only [before_7_later m c t h0]
    unfold blockAfterLater
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h => h0 ((startsBlock_iff t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover_later c _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the library computes from
    the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.TileReads.lean ====
import proofs.«141808_j22789096472783_2_alg».proof.Proof.FrameIdeal
import Idealize.ShloMosaic.Lib.WholeRead
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's layout operations and loads, read at coordinates

Every vector the body computes with is a [256,128] tile: row `r` of the chunk, output column `o`. A weight or
bias enters it as one row [1,128] of a loaded [5,128] (or [5,5,128]) block spread down the rows; the input as a
column [256,1] spread along the columns. -/

section
variable {α : Type}

/-- A [5,128] block's row `a` cut out as [1,128]. -/
theorem row_of_5x128 (a : Fin 5) (X : S5x128.Idx → α) (h : S5x128.Slices ![a.val, 0] S1x128) (u : Fin 1) (o : Fin 128) :
    extractStridedSlice S1x128 ![a.val, 0] X h (ix2 u o) = X (ix2 a o) :=
  extractStridedSlice_apply _ _ _ _ _ (fun ax => by
    match ax with
    | ⟨0, _⟩ => show a.val = a.val + u.val; omega
    | ⟨1, _⟩ => exact (Nat.zero_add _).symm)

/-- A [5,5,128] block's row `(a, b)` cut out as [1,1,128]. -/
theorem row_of_5x5x128 (a b : Fin 5) (X : S5x5x128.Idx → α) (h : S5x5x128.Slices ![a.val, b.val, 0] S1x1x128) (u v : Fin 1) (o : Fin 128) :
    extractStridedSlice S1x1x128 ![a.val, b.val, 0] X h (ix3 u v o) = X (ix3 a b o) :=
  extractStridedSlice_apply _ _ _ _ _ (fun ax => by
    match ax with
    | ⟨0, _⟩ => show a.val = a.val + u.val; omega
    | ⟨1, _⟩ => show b.val = b.val + v.val; omega
    | ⟨2, _⟩ => exact (Nat.zero_add _).symm)

/-- [1,1,128] viewed as a vector [128]. -/
theorem vec_of_1x1x128 (X : S1x1x128.Idx → α) (h : S1x1x128.ShapeCasts S128) (o : Fin 128) :
    shapeCast S128 X h (ix1 o) = X (ix3 (0 : Fin 1) (0 : Fin 1) o) :=
  shapeCast_apply X h _ _ (by
    rw [Shape.rowMajor_val_three, Shape.rowMajor_val_one]
    show (0 * 1 + 0) * 128 + o.val = o.val
    omega)

/-- A column [256,1] spread along 128 columns. -/
theorem col_spread (X : S256x1.Idx → α) (h : S256x1.Broadcasts S256x128) (r : Fin 256) (o : Fin 128) :
    broadcastTo S256x128 X h (ix2 r o) = X (ix2 r (0 : Fin 1)) := by
  refine broadcastTo_apply X h (ix2 r o) (ix2 r (0 : Fin 1)) fun ax => ?_
  match ax with
  | ⟨0, _⟩ => rfl
  | ⟨1, _⟩ => rfl

end

/-! ### Loads through whole staging buffers -/

/-- Row `r` of chunk `k` is row `256·k + r` of the batch block. -/
def chunkRow (k : Fin k0_t1_loop.trips) (r : Fin 256) : Fin 1024 :=
  ⟨256 * k.val + r.val, by have := k0_t1_abs.2.1; have := k.isLt; have := r.isLt; omega⟩

/-- Edge slot 0's [5,128] block read out of a whole [4,5,128] buffer holding `x`. -/
theorem load5x128_0 (a : Memref sig .tc .vmem S4x5x128 .f32) (ha : a.IsWhole) (x : Vec F S4x5x128 .f32)
    (inb : ∀ ax, (![0, 0, 0] : Fin 3 → ℕ) ax + (![1, 5, 128] : Fin 3 → ℕ) ax ≤ S4x5x128.size ax) (u : Fin 1) (h : Fin 5) (o : Fin 128) :
    View.readAt (Elt F) a.view (Rect.unit (s := S4x5x128) ![0, 0, 0] ![1, 5, 128] inb).toLoadRect (ha.unread x) (ix3 u h o) = x (ix3 (0 : Fin 4) h o) :=
  (ha.readAt_unread x _ _).trans (congrArg x (funext fun ax => Fin.ext (by
    match ax with
    | ⟨0, _⟩ => show 0 + 1 * u.val = 0; omega
    | ⟨1, _⟩ => show 0 + 1 * h.val = h.val; omega
    | ⟨2, _⟩ => show 0 + 1 * o.val = o.val; omega)))

theorem load5x5x128_0 (a : Memref sig .tc .vmem S4x5x5x128 .f32) (ha : a.IsWhole) (x : Vec F S4x5x5x128 .f32)
    (inb : ∀ ax, (![0, 0, 0, 0] : Fin 4 → ℕ) ax + (![1, 5, 5, 128] : Fin 4 → ℕ) ax ≤ S4x5x5x128.size ax) (u : Fin 1) (h h' : Fin 5) (o : Fin 128) :
    View.readAt (Elt F) a.view (Rect.unit (s := S4x5x5x128) ![0, 0, 0, 0] ![1, 5, 5, 128] inb).toLoadRect (ha.unread x) (ix4 u h h' o) = x (ix4 (0 : Fin 4) h h' o) :=
  (ha.readAt_unread x _ _).trans (congrArg x (funext fun ax => Fin.ext (by
    match ax with
    | ⟨0, _⟩ => show 0 + 1 * u.val = 0; omega
    | ⟨1, _⟩ => show 0 + 1 * h.val = h.val; omega
    | ⟨2, _⟩ => show 0 + 1 * h'.val = h'.val; omega
    | ⟨3, _⟩ => show 0 + 1 * o.val = o.val; omega)))

theorem load1x128_0 (a : Memref sig .tc .vmem S4x1x128 .f32) (ha : a.IsWhole) (x : Vec F S4x1x128 .f32)
    (inb : ∀ ax, (![0, 0, 0] : Fin 3 → ℕ) ax + (![1, 1, 128] : Fin 3 → ℕ) ax ≤ S4x1x128.size ax) (u v : Fin 1) (o : Fin 128) :
    View.readAt (Elt F) a.view (Rect.unit (s := S4x1x128) ![0, 0, 0] ![1, 1, 128] inb).toLoadRect (ha.unread x) (ix3 u v o) = x (ix3 (0 : Fin 4) (0 : Fin 1) o) :=
  (ha.readAt_unread x _ _).trans (congrArg x (funext fun ax => Fin.ext (by
    match ax with
    | ⟨0, _⟩ => show 0 + 1 * u.val = 0; omega
    | ⟨1, _⟩ => show 0 + 1 * v.val = 0; omega
    | ⟨2, _⟩ => show 0 + 1 * o.val = o.val; omega)))

/-- Edge slot 0's input column for chunk `k`: a load through the slot's [1024,1] view of the whole [4,1024,1] buffer. -/
theorem xcol_0 (a : Memref sig .tc .vmem S4x1024x1 .f32) (ha : a.IsWhole) (x : Vec F S4x1024x1 .f32)
    (inb : ∀ ax, (![0, 0, 0] : Fin 3 → ℕ) ax + (![1, 1024, 1] : Fin 3 → ℕ) ax ≤ S4x1024x1.size ax)
    (hn : S1024x1.numel = (Rect.unit (s := S4x1024x1) ![0, 0, 0] ![1, 1024, 1] inb).shape.numel)
    (k : Fin k0_t1_loop.trips) (hin : ∀ ax, k0_off1 k ax + (![256, 1] : Fin 2 → ℕ) ax ≤ S1024x1.size ax) (r : Fin 256) (u : Fin 1) :
    View.readAt (Elt F) ((a.view.slice (Rect.unit (s := S4x1024x1) ![0, 0, 0] ![1, 1024, 1] inb)).reshape S1024x1 hn)
      (Rect.unit (s := S1024x1) (k0_off1 k) ![256, 1] hin).toLoadRect (ha.unread x) (ix2 r u) = x (ix3 (0 : Fin 4) (chunkRow k r) (0 : Fin 1)) := by
  refine (ha.readAt_slice_reshape_unread x _ _ _ _).trans (congrArg x ?_)
  have hB : (Rect.unit (s := S1024x1) (k0_off1 k) ![256, 1] hin).toLoadRect.idx (ix2 r u) = ix2 (chunkRow k r) (0 : Fin 1) := by
    funext ax
    match ax with
    | ⟨0, _⟩ => exact Fin.ext (by show k0_off1 k 0 + 1 * r.val = 256 * k.val + r.val; rw [k0_off1_eq]; show 256 * k.val + 1 * r.val = _; omega)
    | ⟨1, _⟩ => exact Fin.ext (by show k0_off1 k 1 + 1 * u.val = 0; rw [k0_off1_eq]; show 0 + 1 * u.val = 0; omega)
  rw [hB, reshapeEquiv_ix2_1ab]
  funext ax
  match ax with
  | ⟨0, _⟩ => exact Fin.ext (by show 0 + 1 * 0 = 0; omega)
  | ⟨1, _⟩ => exact Fin.ext (by show 0 + 1 * (chunkRow k r).val = (chunkRow k r).val; omega)
  | ⟨2, _⟩ => exact Fin.ext (by show 0 + 1 * 0 = 0; omega)

/-- Edge slot 1's [5,128] block read out of a whole [4,5,128] buffer holding `x`. -/
theorem load5x128_1 (a : Memref sig .tc .vmem S4x5x128 .f32) (ha : a.IsWhole) (x : Vec F S4x5x128 .f32)
    (inb : ∀ ax, (![1, 0, 0] : Fin 3 → ℕ) ax + (![1, 5, 128] : Fin 3 → ℕ) ax ≤ S4x5x128.size ax) (u : Fin 1) (h : Fin 5) (o : Fin 128) :
    View.readAt (Elt F) a.view (Rect.unit (s := S4x5x128) ![1, 0, 0] ![1, 5, 128] inb).toLoadRect (ha.unread x) (ix3 u h o) = x (ix3 (1 : Fin 4) h o) :=
  (ha.readAt_unread x _ _).trans (congrArg x (funext fun ax => Fin.ext (by
    match ax with
    | ⟨0, _⟩ => show 1 + 1 * u.val = 1; omega
    | ⟨1, _⟩ => show 0 + 1 * h.val = h.val; omega
    | ⟨2, _⟩ => show 0 + 1 * o.val = o.val; omega)))

theorem load5x5x128_1 (a : Memref sig .tc .vmem S4x5x5x128 .f32) (ha : a.IsWhole) (x : Vec F S4x5x5x128 .f32)
    (inb : ∀ ax, (![1, 0, 0, 0] : Fin 4 → ℕ) ax + (![1, 5, 5, 128] : Fin 4 → ℕ) ax ≤ S4x5x5x128.size ax) (u : Fin 1) (h h' : Fin 5) (o : Fin 128) :
    View.readAt (Elt F) a.view (Rect.unit (s := S4x5x5x128) ![1, 0, 0, 0] ![1, 5, 5, 128] inb).toLoadRect (ha.unread x) (ix4 u h h' o) = x (ix4 (1 : Fin 4) h h' o) :=
  (ha.readAt_unread x _ _).trans (congrArg x (funext fun ax => Fin.ext (by
    match ax with
    | ⟨0, _⟩ => show 1 + 1 * u.val = 1; omega
    | ⟨1, _⟩ => show 0 + 1 * h.val = h.val; omega
    | ⟨2, _⟩ => show 0 + 1 * h'.val = h'.val; omega
    | ⟨3, _⟩ => show 0 + 1 * o.val = o.val; omega)))

theorem load1x128_1 (a : Memref sig .tc .vmem S4x1x128 .f32) (ha : a.IsWhole) (x : Vec F S4x1x128 .f32)
    (inb : ∀ ax, (![1, 0, 0] : Fin 3 → ℕ) ax + (![1, 1, 128] : Fin 3 → ℕ) ax ≤ S4x1x128.size ax) (u v : Fin 1) (o : Fin 128) :
    View.readAt (Elt F) a.view (Rect.unit (s := S4x1x128) ![1, 0, 0] ![1, 1, 128] inb).toLoadRect (ha.unread x) (ix3 u v o) = x (ix3 (1 : Fin 4) (0 : Fin 1) o) :=
  (ha.readAt_unread x _ _).trans (congrArg x (funext fun ax => Fin.ext (by
    match ax with
    | ⟨0, _⟩ => show 1 + 1 * u.val = 1; omega
    | ⟨1, _⟩ => show 0 + 1 * v.val = 0; omega
    | ⟨2, _⟩ => show 0 + 1 * o.val = o.val; omega)))

/-- Edge slot 1's input column for chunk `k`: a load through the slot's [1024,1] view of the whole [4,1024,1] buffer. -/
theorem xcol_1 (a : Memref sig .tc .vmem S4x1024x1 .f32) (ha : a.IsWhole) (x : Vec F S4x1024x1 .f32)
    (inb : ∀ ax, (![1, 0, 0] : Fin 3 → ℕ) ax + (![1, 1024, 1] : Fin 3 → ℕ) ax ≤ S4x1024x1.size ax)
    (hn : S1024x1.numel = (Rect.unit (s := S4x1024x1) ![1, 0, 0] ![1, 1024, 1] inb).shape.numel)
    (k : Fin k0_t1_loop.trips) (hin : ∀ ax, k0_off1 k ax + (![256, 1] : Fin 2 → ℕ) ax ≤ S1024x1.size ax) (r : Fin 256) (u : Fin 1) :
    View.readAt (Elt F) ((a.view.slice (Rect.unit (s := S4x1024x1) ![1, 0, 0] ![1, 1024, 1] inb)).reshape S1024x1 hn)
      (Rect.unit (s := S1024x1) (k0_off1 k) ![256, 1] hin).toLoadRect (ha.unread x) (ix2 r u) = x (ix3 (1 : Fin 4) (chunkRow k r) (0 : Fin 1)) := by
  refine (ha.readAt_slice_reshape_unread x _ _ _ _).trans (congrArg x ?_)
  have hB : (Rect.unit (s := S1024x1) (k0_off1 k) ![256, 1] hin).toLoadRect.idx (ix2 r u) = ix2 (chunkRow k r) (0 : Fin 1) := by
    funext ax
    match ax with
    | ⟨0, _⟩ => exact Fin.ext (by show k0_off1 k 0 + 1 * r.val = 256 * k.val + r.val; rw [k0_off1_eq]; show 256 * k.val + 1 * r.val = _; omega)
    | ⟨1, _⟩ => exact Fin.ext (by show k0_off1 k 1 + 1 * u.val = 0; rw [k0_off1_eq]; show 0 + 1 * u.val = 0; omega)
  rw [hB, reshapeEquiv_ix2_1ab]
  funext ax
  match ax with
  | ⟨0, _⟩ => exact Fin.ext (by show 1 + 1 * 0 = 1; omega)
  | ⟨1, _⟩ => exact Fin.ext (by show 0 + 1 * (chunkRow k r).val = (chunkRow k r).val; omega)
  | ⟨2, _⟩ => exact Fin.ext (by show 0 + 1 * 0 = 0; omega)

/-- Edge slot 2's [5,128] block read out of a whole [4,5,128] buffer holding `x`. -/
theorem load5x128_2 (a : Memref sig .tc .vmem S4x5x128 .f32) (ha : a.IsWhole) (x : Vec F S4x5x128 .f32)
    (inb : ∀ ax, (![2, 0, 0] : Fin 3 → ℕ) ax + (![1, 5, 128] : Fin 3 → ℕ) ax ≤ S4x5x128.size ax) (u : Fin 1) (h : Fin 5) (o : Fin 128) :
    View.readAt (Elt F) a.view (Rect.unit (s := S4x5x128) ![2, 0, 0] ![1, 5, 128] inb).toLoadRect (ha.unread x) (ix3 u h o) = x (ix3 (2 : Fin 4) h o) :=
  (ha.readAt_unread x _ _).trans (congrArg x (funext fun ax => Fin.ext (by
    match ax with
    | ⟨0, _⟩ => show 2 + 1 * u.val = 2; omega
    | ⟨1, _⟩ => show 0 + 1 * h.val = h.val; omega
    | ⟨2, _⟩ => show 0 + 1 * o.val = o.val; omega)))

theorem load5x5x128_2 (a : Memref sig .tc .vmem S4x5x5x128 .f32) (ha : a.IsWhole) (x : Vec F S4x5x5x128 .f32)
    (inb : ∀ ax, (![2, 0, 0, 0] : Fin 4 → ℕ) ax + (![1, 5, 5, 128] : Fin 4 → ℕ) ax ≤ S4x5x5x128.size ax) (u : Fin 1) (h h' : Fin 5) (o : Fin 128) :
    View.readAt (Elt F) a.view (Rect.unit (s := S4x5x5x128) ![2, 0, 0, 0] ![1, 5, 5, 128] inb).toLoadRect (ha.unread x) (ix4 u h h' o) = x (ix4 (2 : Fin 4) h h' o) :=
  (ha.readAt_unread x _ _).trans (congrArg x (funext fun ax => Fin.ext (by
    match ax with
    | ⟨0, _⟩ => show 2 + 1 * u.val = 2; omega
    | ⟨1, _⟩ => show 0 + 1 * h.val = h.val; omega
    | ⟨2, _⟩ => show 0 + 1 * h'.val = h'.val; omega
    | ⟨3, _⟩ => show 0 + 1 * o.val = o.val; omega)))

theorem load1x128_2 (a : Memref sig .tc .vmem S4x1x128 .f32) (ha : a.IsWhole) (x : Vec F S4x1x128 .f32)
    (inb : ∀ ax, (![2, 0, 0] : Fin 3 → ℕ) ax + (![1, 1, 128] : Fin 3 → ℕ) ax ≤ S4x1x128.size ax) (u v : Fin 1) (o : Fin 128) :
    View.readAt (Elt F) a.view (Rect.unit (s := S4x1x128) ![2, 0, 0] ![1, 1, 128] inb).toLoadRect (ha.unread x) (ix3 u v o) = x (ix3 (2 : Fin 4) (0 : Fin 1) o) :=
  (ha.readAt_unread x _ _).trans (congrArg x (funext fun ax => Fin.ext (by
    match ax with
    | ⟨0, _⟩ => show 2 + 1 * u.val = 2; omega
    | ⟨1, _⟩ => show 0 + 1 * v.val = 0; omega
    | ⟨2, _⟩ => show 0 + 1 * o.val = o.val; omega)))

/-- Edge slot 2's input column for chunk `k`: a load through the slot's [1024,1] view of the whole [4,1024,1] buffer. -/
theorem xcol_2 (a : Memref sig .tc .vmem S4x1024x1 .f32) (ha : a.IsWhole) (x : Vec F S4x1024x1 .f32)
    (inb : ∀ ax, (![2, 0, 0] : Fin 3 → ℕ) ax + (![1, 1024, 1] : Fin 3 → ℕ) ax ≤ S4x1024x1.size ax)
    (hn : S1024x1.numel = (Rect.unit (s := S4x1024x1) ![2, 0, 0] ![1, 1024, 1] inb).shape.numel)
    (k : Fin k0_t1_loop.trips) (hin : ∀ ax, k0_off1 k ax + (![256, 1] : Fin 2 → ℕ) ax ≤ S1024x1.size ax) (r : Fin 256) (u : Fin 1) :
    View.readAt (Elt F) ((a.view.slice (Rect.unit (s := S4x1024x1) ![2, 0, 0] ![1, 1024, 1] inb)).reshape S1024x1 hn)
      (Rect.unit (s := S1024x1) (k0_off1 k) ![256, 1] hin).toLoadRect (ha.unread x) (ix2 r u) = x (ix3 (2 : Fin 4) (chunkRow k r) (0 : Fin 1)) := by
  refine (ha.readAt_slice_reshape_unread x _ _ _ _).trans (congrArg x ?_)
  have hB : (Rect.unit (s := S1024x1) (k0_off1 k) ![256, 1] hin).toLoadRect.idx (ix2 r u) = ix2 (chunkRow k r) (0 : Fin 1) := by
    funext ax
    match ax with
    | ⟨0, _⟩ => exact Fin.ext (by show k0_off1 k 0 + 1 * r.val = 256 * k.val + r.val; rw [k0_off1_eq]; show 256 * k.val + 1 * r.val = _; omega)
    | ⟨1, _⟩ => exact Fin.ext (by show k0_off1 k 1 + 1 * u.val = 0; rw [k0_off1_eq]; show 0 + 1 * u.val = 0; omega)
  rw [hB, reshapeEquiv_ix2_1ab]
  funext ax
  match ax with
  | ⟨0, _⟩ => exact Fin.ext (by show 2 + 1 * 0 = 2; omega)
  | ⟨1, _⟩ => exact Fin.ext (by show 0 + 1 * (chunkRow k r).val = (chunkRow k r).val; omega)
  | ⟨2, _⟩ => exact Fin.ext (by show 0 + 1 * 0 = 0; omega)

/-- Edge slot 3's [5,128] block read out of a whole [4,5,128] buffer holding `x`. -/
theorem load5x128_3 (a : Memref sig .tc .vmem S4x5x128 .f32) (ha : a.IsWhole) (x : Vec F S4x5x128 .f32)
    (inb : ∀ ax, (![3, 0, 0] : Fin 3 → ℕ) ax + (![1, 5, 128] : Fin 3 → ℕ) ax ≤ S4x5x128.size ax) (u : Fin 1) (h : Fin 5) (o : Fin 128) :
    View.readAt (Elt F) a.view (Rect.unit (s := S4x5x128) ![3, 0, 0] ![1, 5, 128] inb).toLoadRect (ha.unread x) (ix3 u h o) = x (ix3 (3 : Fin 4) h o) :=
  (ha.readAt_unread x _ _).trans (congrArg x (funext fun ax => Fin.ext (by
    match ax with
    | ⟨0, _⟩ => show 3 + 1 * u.val = 3; omega
    | ⟨1, _⟩ => show 0 + 1 * h.val = h.val; omega
    | ⟨2, _⟩ => show 0 + 1 * o.val = o.val; omega)))

theorem load5x5x128_3 (a : Memref sig .tc .vmem S4x5x5x128 .f32) (ha : a.IsWhole) (x : Vec F S4x5x5x128 .f32)
    (inb : ∀ ax, (![3, 0, 0, 0] : Fin 4 → ℕ) ax + (![1, 5, 5, 128] : Fin 4 → ℕ) ax ≤ S4x5x5x128.size ax) (u : Fin 1) (h h' : Fin 5) (o : Fin 128) :
    View.readAt (Elt F) a.view (Rect.unit (s := S4x5x5x128) ![3, 0, 0, 0] ![1, 5, 5, 128] inb).toLoadRect (ha.unread x) (ix4 u h h' o) = x (ix4 (3 : Fin 4) h h' o) :=
  (ha.readAt_unread x _ _).trans (congrArg x (funext fun ax => Fin.ext (by
    match ax with
    | ⟨0, _⟩ => show 3 + 1 * u.val = 3; omega
    | ⟨1, _⟩ => show 0 + 1 * h.val = h.val; omega
    | ⟨2, _⟩ => show 0 + 1 * h'.val = h'.val; omega
    | ⟨3, _⟩ => show 0 + 1 * o.val = o.val; omega)))

theorem load1x128_3 (a : Memref sig .tc .vmem S4x1x128 .f32) (ha : a.IsWhole) (x : Vec F S4x1x128 .f32)
    (inb : ∀ ax, (![3, 0, 0] : Fin 3 → ℕ) ax + (![1, 1, 128] : Fin 3 → ℕ) ax ≤ S4x1x128.size ax) (u v : Fin 1) (o : Fin 128) :
    View.readAt (Elt F) a.view (Rect.unit (s := S4x1x128) ![3, 0, 0] ![1, 1, 128] inb).toLoadRect (ha.unread x) (ix3 u v o) = x (ix3 (3 : Fin 4) (0 : Fin 1) o) :=
  (ha.readAt_unread x _ _).trans (congrArg x (funext fun ax => Fin.ext (by
    match ax with
    | ⟨0, _⟩ => show 3 + 1 * u.val = 3; omega
    | ⟨1, _⟩ => show 0 + 1 * v.val = 0; omega
    | ⟨2, _⟩ => show 0 + 1 * o.val = o.val; omega)))

/-- Edge slot 3's input column for chunk `k`: a load through the slot's [1024,1] view of the whole [4,1024,1] buffer. -/
theorem xcol_3 (a : Memref sig .tc .vmem S4x1024x1 .f32) (ha : a.IsWhole) (x : Vec F S4x1024x1 .f32)
    (inb : ∀ ax, (![3, 0, 0] : Fin 3 → ℕ) ax + (![1, 1024, 1] : Fin 3 → ℕ) ax ≤ S4x1024x1.size ax)
    (hn : S1024x1.numel = (Rect.unit (s := S4x1024x1) ![3, 0, 0] ![1, 1024, 1] inb).shape.numel)
    (k : Fin k0_t1_loop.trips) (hin : ∀ ax, k0_off1 k ax + (![256, 1] : Fin 2 → ℕ) ax ≤ S1024x1.size ax) (r : Fin 256) (u : Fin 1) :
    View.readAt (Elt F) ((a.view.slice (Rect.unit (s := S4x1024x1) ![3, 0, 0] ![1, 1024, 1] inb)).reshape S1024x1 hn)
      (Rect.unit (s := S1024x1) (k0_off1 k) ![256, 1] hin).toLoadRect (ha.unread x) (ix2 r u) = x (ix3 (3 : Fin 4) (chunkRow k r) (0 : Fin 1)) := by
  refine (ha.readAt_slice_reshape_unread x _ _ _ _).trans (congrArg x ?_)
  have hB : (Rect.unit (s := S1024x1) (k0_off1 k) ![256, 1] hin).toLoadRect.idx (ix2 r u) = ix2 (chunkRow k r) (0 : Fin 1) := by
    funext ax
    match ax with
    | ⟨0, _⟩ => exact Fin.ext (by show k0_off1 k 0 + 1 * r.val = 256 * k.val + r.val; rw [k0_off1_eq]; show 256 * k.val + 1 * r.val = _; omega)
    | ⟨1, _⟩ => exact Fin.ext (by show k0_off1 k 1 + 1 * u.val = 0; rw [k0_off1_eq]; show 0 + 1 * u.val = 0; omega)
  rw [hB, reshapeEquiv_ix2_1ab]
  funext ax
  match ax with
  | ⟨0, _⟩ => exact Fin.ext (by show 3 + 1 * 0 = 3; omega)
  | ⟨1, _⟩ => exact Fin.ext (by show 0 + 1 * (chunkRow k r).val = (chunkRow k r).val; omega)
  | ⟨2, _⟩ => exact Fin.ext (by show 0 + 1 * 0 = 0; omega)

/-- The chunk's rows read back from the output block. -/
theorem chunk_rows (a : Memref sig .tc .vmem S1024x128 .f32) (f : BufTy.Contents (Elt F) a.view.ty)
    (k : Fin k0_t1_loop.trips) (hin : ∀ ax, k0_off2 k ax + (![256, 128] : Fin 2 → ℕ) ax ≤ S1024x128.size ax) (r : Fin 256) (o : Fin 128) :
    View.readAt (Elt F) a.view (Rect.unit (s := S1024x128) (k0_off2 k) ![256, 128] hin).toLoadRect f (ix2 r o)
      = a.view.read (Elt F) f (ix2 (chunkRow k r) o) := by
  show a.view.read (Elt F) f ((Rect.unit (s := S1024x128) (k0_off2 k) ![256, 128] hin).toLoadRect.idx (ix2 r o)) = _
  congr 1
  funext ax
  match ax with
  | ⟨0, _⟩ => exact Fin.ext (by show k0_off2 k 0 + 1 * r.val = 256 * k.val + r.val; rw [k0_off2_eq]; show 256 * k.val + 1 * r.val = _; omega)
  | ⟨1, _⟩ => exact Fin.ext (by show k0_off2 k 1 + 1 * o.val = o.val; rw [k0_off2_eq]; show 0 + 1 * o.val = _; omega)

/-! ### The row cuts at each literal offset -/
section
variable {α : Type}
theorem row5x128_0 (X : S5x128.Idx → α) (h : S5x128.Slices ![0, 0] S1x128) (u : Fin 1) (o : Fin 128) :
    extractStridedSlice S1x128 ![0, 0] X h (ix2 u o) = X (ix2 (0 : Fin 5) o) := row_of_5x128 (0 : Fin 5) X h u o
theorem row5x128_1 (X : S5x128.Idx → α) (h : S5x128.Slices ![1, 0] S1x128) (u : Fin 1) (o : Fin 128) :
    extractStridedSlice S1x128 ![1, 0] X h (ix2 u o) = X (ix2 (1 : Fin 5) o) := row_of_5x128 (1 : Fin 5) X h u o
theorem row5x128_2 (X : S5x128.Idx → α) (h : S5x128.Slices ![2, 0] S1x128) (u : Fin 1) (o : Fin 128) :
    extractStridedSlice S1x128 ![2, 0] X h (ix2 u o) = X (ix2 (2 : Fin 5) o) := row_of_5x128 (2 : Fin 5) X h u o
theorem row5x128_3 (X : S5x128.Idx → α) (h : S5x128.Slices ![3, 0] S1x128) (u : Fin 1) (o : Fin 128) :
    extractStridedSlice S1x128 ![3, 0] X h (ix2 u o) = X (ix2 (3 : Fin 5) o) := row_of_5x128 (3 : Fin 5) X h u o
theorem row5x128_4 (X : S5x128.Idx → α) (h : S5x128.Slices ![4, 0] S1x128) (u : Fin 1) (o : Fin 128) :
    extractStridedSlice S1x128 ![4, 0] X h (ix2 u o) = X (ix2 (4 : Fin 5) o) := row_of_5x128 (4 : Fin 5) X h u o
theorem row5x5x128_0_0 (X : S5x5x128.Idx → α) (h : S5x5x128.Slices ![0, 0, 0] S1x1x128) (u v : Fin 1) (o : Fin 128) :
    extractStridedSlice S1x1x128 ![0, 0, 0] X h (ix3 u v o) = X (ix3 (0 : Fin 5) (0 : Fin 5) o) := row_of_5x5x128 (0 : Fin 5) (0 : Fin 5) X h u v o
theorem row5x5x128_0_1 (X : S5x5x128.Idx → α) (h : S5x5x128.Slices ![0, 1, 0] S1x1x128) (u v : Fin 1) (o : Fin 128) :
    extractStridedSlice S1x1x128 ![0, 1, 0] X h (ix3 u v o) = X (ix3 (0 : Fin 5) (1 : Fin 5) o) := row_of_5x5x128 (0 : Fin 5) (1 : Fin 5) X h u v o
theorem row5x5x128_0_2 (X : S5x5x128.Idx → α) (h : S5x5x128.Slices ![0, 2, 0] S1x1x128) (u v : Fin 1) (o : Fin 128) :
    extractStridedSlice S1x1x128 ![0, 2, 0] X h (ix3 u v o) = X (ix3 (0 : Fin 5) (2 : Fin 5) o) := row_of_5x5x128 (0 : Fin 5) (2 : Fin 5) X h u v o
theorem row5x5x128_0_3 (X : S5x5x128.Idx → α) (h : S5x5x128.Slices ![0, 3, 0] S1x1x128) (u v : Fin 1) (o : Fin 128) :
    extractStridedSlice S1x1x128 ![0, 3, 0] X h (ix3 u v o) = X (ix3 (0 : Fin 5) (3 : Fin 5) o) := row_of_5x5x128 (0 : Fin 5) (3 : Fin 5) X h u v o
theorem row5x5x128_0_4 (X : S5x5x128.Idx → α) (h : S5x5x128.Slices ![0, 4, 0] S1x1x128) (u v : Fin 1) (o : Fin 128) :
    extractStridedSlice S1x1x128 ![0, 4, 0] X h (ix3 u v o) = X (ix3 (0 : Fin 5) (4 : Fin 5) o) := row_of_5x5x128 (0 : Fin 5) (4 : Fin 5) X h u v o
theorem row5x5x128_1_0 (X : S5x5x128.Idx → α) (h : S5x5x128.Slices ![1, 0, 0] S1x1x128) (u v : Fin 1) (o : Fin 128) :
    extractStridedSlice S1x1x128 ![1, 0, 0] X h (ix3 u v o) = X (ix3 (1 : Fin 5) (0 : Fin 5) o) := row_of_5x5x128 (1 : Fin 5) (0 : Fin 5) X h u v o
theorem row5x5x128_1_1 (X : S5x5x128.Idx → α) (h : S5x5x128.Slices ![1, 1, 0] S1x1x128) (u v : Fin 1) (o : Fin 128) :
    extractStridedSlice S1x1x128 ![1, 1, 0] X h (ix3 u v o) = X (ix3 (1 : Fin 5) (1 : Fin 5) o) := row_of_5x5x128 (1 : Fin 5) (1 : Fin 5) X h u v o
theorem row5x5x128_1_2 (X : S5x5x128.Idx → α) (h : S5x5x128.Slices ![1, 2, 0] S1x1x128) (u v : Fin 1) (o : Fin 128) :
    extractStridedSlice S1x1x128 ![1, 2, 0] X h (ix3 u v o) = X (ix3 (1 : Fin 5) (2 : Fin 5) o) := row_of_5x5x128 (1 : Fin 5) (2 : Fin 5) X h u v o
theorem row5x5x128_1_3 (X : S5x5x128.Idx → α) (h : S5x5x128.Slices ![1, 3, 0] S1x1x128) (u v : Fin 1) (o : Fin 128) :
    extractStridedSlice S1x1x128 ![1, 3, 0] X h (ix3 u v o) = X (ix3 (1 : Fin 5) (3 : Fin 5) o) := row_of_5x5x128 (1 : Fin 5) (3 : Fin 5) X h u v o
theorem row5x5x128_1_4 (X : S5x5x128.Idx → α) (h : S5x5x128.Slices ![1, 4, 0] S1x1x128) (u v : Fin 1) (o : Fin 128) :
    extractStridedSlice S1x1x128 ![1, 4, 0] X h (ix3 u v o) = X (ix3 (1 : Fin 5) (4 : Fin 5) o) := row_of_5x5x128 (1 : Fin 5) (4 : Fin 5) X h u v o
theorem row5x5x128_2_0 (X : S5x5x128.Idx → α) (h : S5x5x128.Slices ![2, 0, 0] S1x1x128) (u v : Fin 1) (o : Fin 128) :
    extractStridedSlice S1x1x128 ![2, 0, 0] X h (ix3 u v o) = X (ix3 (2 : Fin 5) (0 : Fin 5) o) := row_of_5x5x128 (2 : Fin 5) (0 : Fin 5) X h u v o
theorem row5x5x128_2_1 (X : S5x5x128.Idx → α) (h : S5x5x128.Slices ![2, 1, 0] S1x1x128) (u v : Fin 1) (o : Fin 128) :
    extractStridedSlice S1x1x128 ![2, 1, 0] X h (ix3 u v o) = X (ix3 (2 : Fin 5) (1 : Fin 5) o) := row_of_5x5x128 (2 : Fin 5) (1 : Fin 5) X h u v o
theorem row5x5x128_2_2 (X : S5x5x128.Idx → α) (h : S5x5x128.Slices ![2, 2, 0] S1x1x128) (u v : Fin 1) (o : Fin 128) :
    extractStridedSlice S1x1x128 ![2, 2, 0] X h (ix3 u v o) = X (ix3 (2 : Fin 5) (2 : Fin 5) o) := row_of_5x5x128 (2 : Fin 5) (2 : Fin 5) X h u v o
theorem row5x5x128_2_3 (X : S5x5x128.Idx → α) (h : S5x5x128.Slices ![2, 3, 0] S1x1x128) (u v : Fin 1) (o : Fin 128) :
    extractStridedSlice S1x1x128 ![2, 3, 0] X h (ix3 u v o) = X (ix3 (2 : Fin 5) (3 : Fin 5) o) := row_of_5x5x128 (2 : Fin 5) (3 : Fin 5) X h u v o
theorem row5x5x128_2_4 (X : S5x5x128.Idx → α) (h : S5x5x128.Slices ![2, 4, 0] S1x1x128) (u v : Fin 1) (o : Fin 128) :
    extractStridedSlice S1x1x128 ![2, 4, 0] X h (ix3 u v o) = X (ix3 (2 : Fin 5) (4 : Fin 5) o) := row_of_5x5x128 (2 : Fin 5) (4 : Fin 5) X h u v o
theorem row5x5x128_3_0 (X : S5x5x128.Idx → α) (h : S5x5x128.Slices ![3, 0, 0] S1x1x128) (u v : Fin 1) (o : Fin 128) :
    extractStridedSlice S1x1x128 ![3, 0, 0] X h (ix3 u v o) = X (ix3 (3 : Fin 5) (0 : Fin 5) o) := row_of_5x5x128 (3 : Fin 5) (0 : Fin 5) X h u v o
theorem row5x5x128_3_1 (X : S5x5x128.Idx → α) (h : S5x5x128.Slices ![3, 1, 0] S1x1x128) (u v : Fin 1) (o : Fin 128) :
    extractStridedSlice S1x1x128 ![3, 1, 0] X h (ix3 u v o) = X (ix3 (3 : Fin 5) (1 : Fin 5) o) := row_of_5x5x128 (3 : Fin 5) (1 : Fin 5) X h u v o
theorem row5x5x128_3_2 (X : S5x5x128.Idx → α) (h : S5x5x128.Slices ![3, 2, 0] S1x1x128) (u v : Fin 1) (o : Fin 128) :
    extractStridedSlice S1x1x128 ![3, 2, 0] X h (ix3 u v o) = X (ix3 (3 : Fin 5) (2 : Fin 5) o) := row_of_5x5x128 (3 : Fin 5) (2 : Fin 5) X h u v o
theorem row5x5x128_3_3 (X : S5x5x128.Idx → α) (h : S5x5x128.Slices ![3, 3, 0] S1x1x128) (u v : Fin 1) (o : Fin 128) :
    extractStridedSlice S1x1x128 ![3, 3, 0] X h (ix3 u v o) = X (ix3 (3 : Fin 5) (3 : Fin 5) o) := row_of_5x5x128 (3 : Fin 5) (3 : Fin 5) X h u v o
theorem row5x5x128_3_4 (X : S5x5x128.Idx → α) (h : S5x5x128.Slices ![3, 4, 0] S1x1x128) (u v : Fin 1) (o : Fin 128) :
    extractStridedSlice S1x1x128 ![3, 4, 0] X h (ix3 u v o) = X (ix3 (3 : Fin 5) (4 : Fin 5) o) := row_of_5x5x128 (3 : Fin 5) (4 : Fin 5) X h u v o
theorem row5x5x128_4_0 (X : S5x5x128.Idx → α) (h : S5x5x128.Slices ![4, 0, 0] S1x1x128) (u v : Fin 1) (o : Fin 128) :
    extractStridedSlice S1x1x128 ![4, 0, 0] X h (ix3 u v o) = X (ix3 (4 : Fin 5) (0 : Fin 5) o) := row_of_5x5x128 (4 : Fin 5) (0 : Fin 5) X h u v o
theorem row5x5x128_4_1 (X : S5x5x128.Idx → α) (h : S5x5x128.Slices ![4, 1, 0] S1x1x128) (u v : Fin 1) (o : Fin 128) :
    extractStridedSlice S1x1x128 ![4, 1, 0] X h (ix3 u v o) = X (ix3 (4 : Fin 5) (1 : Fin 5) o) := row_of_5x5x128 (4 : Fin 5) (1 : Fin 5) X h u v o
theorem row5x5x128_4_2 (X : S5x5x128.Idx → α) (h : S5x5x128.Slices ![4, 2, 0] S1x1x128) (u v : Fin 1) (o : Fin 128) :
    extractStridedSlice S1x1x128 ![4, 2, 0] X h (ix3 u v o) = X (ix3 (4 : Fin 5) (2 : Fin 5) o) := row_of_5x5x128 (4 : Fin 5) (2 : Fin 5) X h u v o
theorem row5x5x128_4_3 (X : S5x5x128.Idx → α) (h : S5x5x128.Slices ![4, 3, 0] S1x1x128) (u v : Fin 1) (o : Fin 128) :
    extractStridedSlice S1x1x128 ![4, 3, 0] X h (ix3 u v o) = X (ix3 (4 : Fin 5) (3 : Fin 5) o) := row_of_5x5x128 (4 : Fin 5) (3 : Fin 5) X h u v o
theorem row5x5x128_4_4 (X : S5x5x128.Idx → α) (h : S5x5x128.Slices ![4, 4, 0] S1x1x128) (u v : Fin 1) (o : Fin 128) :
    extractStridedSlice S1x1x128 ![4, 4, 0] X h (ix3 u v o) = X (ix3 (4 : Fin 5) (4 : Fin 5) o) := row_of_5x5x128 (4 : Fin 5) (4 : Fin 5) X h u v o
end

end Cert.KernelIdeal.Hand

end
-- ==== Proof.EdgeNets.lean ====
import Idealize.ShloMosaic.PureOps.Ideal
import Idealize.ShloMosaic.PureOps.Ideal.Laws
import Idealize.ShloMosaic.Lib.ValueIdx

/-!
# The layer as one function of its arguments

For every pair of an input feature `i` (of 128) and an output `o` (of 128) there is a small network from one real
to one real, numbered `n = 128·i + o`: two hidden layers of width 5 with the activation `v ↦ v · 1/(1 + e^(−v))`
after each, then an affine read-out. Entry `(b, o)` of the result is the sum over the features `i` of network
`128·i + o` applied to `x(b, i)`, added to a zero. Everything is stated on the extended reals; the only laws used
anywhere below are that `+` and `·` there are commutative and associative and that `0 + v = v`.
-/

noncomputable section

namespace Cert.EdgeNets

open Idealize.ShloMosaic Idealize.ShloMosaic.ValueIdx
open scoped BigOperators

abbrev Sx : Shape := ⟨2, ![2048, 128]⟩
abbrev Sw0 : Shape := ⟨3, ![16384, 5, 1]⟩
abbrev Sw1 : Shape := ⟨3, ![16384, 5, 5]⟩
abbrev Sw2 : Shape := ⟨3, ![16384, 1, 5]⟩
abbrev Sb2 : Shape := ⟨3, ![16384, 1, 1]⟩

/-- The activation, in the form both programs spell it: `v` times the logistic of `v`. -/
def act (v : EReal) : EReal := v * Ideal.div 1 (1 + Ideal.exp (-v))

theorem act_eq_logistic (v : EReal) : act v = v * Ideal.logistic v := rfl

/-- The network numbered `128·i + o`. -/
def net (i o : Fin 128) : Fin 16384 := ⟨128 * i.val + o.val, by have := i.isLt; have := o.isLt; omega⟩

section
variable (W0 b0 : Sw0.Idx → EReal) (W1 : Sw1.Idx → EReal) (b1 : Sw0.Idx → EReal) (W2 : Sw2.Idx → EReal) (b2 : Sb2.Idx → EReal)

/-- First hidden layer of network `n` at the input `X`. -/
def hid0 (n : Fin 16384) (X : EReal) (h : Fin 5) : EReal :=
  act ((∑ k : Fin 1, W0 (ix3 n h k) * X) + b0 (ix3 n h 0))

/-- Second hidden layer. -/
def hid1 (n : Fin 16384) (X : EReal) (h : Fin 5) : EReal :=
  act ((∑ k : Fin 5, W1 (ix3 n h k) * hid0 W0 b0 n X k) + b1 (ix3 n h 0))

/-- The network's output. -/
def netOut (n : Fin 16384) (X : EReal) : EReal :=
  (∑ k : Fin 5, W2 (ix3 n 0 k) * hid1 W0 b0 W1 b1 n X k) + b2 (ix3 n 0 0)

/-- THE RESULT: entry `(b, o)` is a zero plus the sum over the features of the feature's network at `x(b, i)`. -/
def layer (x : Sx.Idx → EReal) : Sx.Idx → EReal := fun j =>
  Ideal.ofBits .f32 0x00000000#32 + ∑ i : Fin 128, netOut W0 b0 W1 b1 W2 b2 (net i (j 1)) (x (ix2 (j 0) i))

end

end Cert.EdgeNets

end
-- ==== Proof.KernelOrder.lean ====
import proofs.«141808_j22789096472783_2_alg».proof.Proof.EdgeNets

/-!
# One edge's network in the kernel's order of operations

The kernel computes one network's output at one entry as a chain of multiply-adds: the bias first, then one
product after another added on the right; the input multiplies the first-layer weight from the left. Four
networks' outputs are added one after another to a zero, and the result to what the output block held.
-/

noncomputable section

namespace Cert.EdgeNets

open Idealize.ShloMosaic

/-- The activation as the kernel spells it: `v` times its logistic. -/
def kact (v : EReal) : EReal := v * Ideal.logistic v

section
variable (X : EReal) (w0 b0 : Fin 5 → EReal) (w1 : Fin 5 → Fin 5 → EReal) (b1 : Fin 5 → EReal) (w2 : Fin 5 → EReal) (b2 : EReal)

/-- First hidden layer, unit `h`. -/
def kh0 (h : Fin 5) : EReal := kact (X * w0 h + b0 h)

/-- Second hidden layer before the activation: the bias, then the five products added in turn. -/
def kacc1 (hp : Fin 5) : EReal :=
  ((((b1 hp + w1 hp 0 * kh0 X w0 b0 0) + w1 hp 1 * kh0 X w0 b0 1) + w1 hp 2 * kh0 X w0 b0 2) + w1 hp 3 * kh0 X w0 b0 3)
    + w1 hp 4 * kh0 X w0 b0 4

/-- Second hidden layer, unit `hp`. -/
def kh1 (hp : Fin 5) : EReal := kact (kacc1 X w0 b0 w1 b1 hp)

/-- The network's output: the bias, then the five products added in turn. -/
def kout : EReal :=
  ((((b2 + w2 0 * kh1 X w0 b0 w1 b1 0) + w2 1 * kh1 X w0 b0 w1 b1 1) + w2 2 * kh1 X w0 b0 w1 b1 2) + w2 3 * kh1 X w0 b0 w1 b1 3)
    + w2 4 * kh1 X w0 b0 w1 b1 4

end

end Cert.EdgeNets

end
-- ==== Proof.TripValue.lean ====
import proofs.«141808_j22789096472783_2_alg».proof.Proof.TileReads
import proofs.«141808_j22789096472783_2_alg».proof.Proof.KernelOrder

set_option maxRecDepth 16384

noncomputable section

namespace Cert.KernelIdeal.Hand

open Cert.KernelIdeal Cert.KernelIdeal.Gen Idealize.ShloMosaic.ValueIdx Cert.EdgeNets

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What one trip adds at one entry of the output block

Row `R` of the batch block, output column `o`: the four edge slots' networks at `x(slot, R)`, each in the
kernel's order, added one after another to a zero. -/

/-- What a trip adds at entry `(R, o)` of the batch block, from the seven input blocks. -/
def quad (x2 : Vec Ideal S4x1024x1 .f32) (x3 : Vec Ideal S4x5x128 .f32) (x4 : Vec Ideal S4x5x5x128 .f32) (x5 : Vec Ideal S4x5x128 .f32) (x6 : Vec Ideal S4x5x128 .f32) (x7 : Vec Ideal S4x5x128 .f32) (x8 : Vec Ideal S4x1x128 .f32) (R : Fin 1024) (o : Fin 128) : EReal :=
  (((Ideal.ofBits .f32 0x00000000#32 + kout (x2 (ix3 (0 : Fin 4) R (0 : Fin 1))) (fun h => x3 (ix3 (0 : Fin 4) h o)) (fun h => x6 (ix3 (0 : Fin 4) h o)) (fun hp h => x4 (ix4 (0 : Fin 4) hp h o)) (fun h => x7 (ix3 (0 : Fin 4) h o)) (fun h => x5 (ix3 (0 : Fin 4) h o)) (x8 (ix3 (0 : Fin 4) (0 : Fin 1) o)))
    + kout (x2 (ix3 (1 : Fin 4) R (0 : Fin 1))) (fun h => x3 (ix3 (1 : Fin 4) h o)) (fun h => x6 (ix3 (1 : Fin 4) h o)) (fun hp h => x4 (ix4 (1 : Fin 4) hp h o)) (fun h => x7 (ix3 (1 : Fin 4) h o)) (fun h => x5 (ix3 (1 : Fin 4) h o)) (x8 (ix3 (1 : Fin 4) (0 : Fin 1) o)))
    + kout (x2 (ix3 (2 : Fin 4) R (0 : Fin 1))) (fun h => x3 (ix3 (2 : Fin 4) h o)) (fun h => x6 (ix3 (2 : Fin 4) h o)) (fun hp h => x4 (ix4 (2 : Fin 4) hp h o)) (fun h => x7 (ix3 (2 : Fin 4) h o)) (fun h => x5 (ix3 (2 : Fin 4) h o)) (x8 (ix3 (2 : Fin 4) (0 : Fin 1) o)))
    + kout (x2 (ix3 (3 : Fin 4) R (0 : Fin 1))) (fun h => x3 (ix3 (3 : Fin 4) h o)) (fun h => x6 (ix3 (3 : Fin 4) h o)) (fun hp h => x4 (ix4 (3 : Fin 4) hp h o)) (fun h => x7 (ix3 (3 : Fin 4) h o)) (fun h => x5 (ix3 (3 : Fin 4) h o)) (x8 (ix3 (3 : Fin 4) (0 : Fin 1) o))

section
variable (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (x2 : Vec Ideal S4x1024x1 .f32) (x3 : Vec Ideal S4x5x128 .f32) (x4 : Vec Ideal S4x5x5x128 .f32) (x5 : Vec Ideal S4x5x128 .f32) (x6 : Vec Ideal S4x5x128 .f32) (x7 : Vec Ideal S4x5x128 .f32) (x8 : Vec Ideal S4x1x128 .f32)

/-- The value trip `k` stores into its chunk's rows, from what it finds in the output block. -/
def tripPayload (k : Fin k0_t1_loop.trips) (f9 : BufTy.Contents (Elt Ideal) arg9.view.ty) : FVec Ideal S256x128 .f32 :=
  k0_pay2 (chunkTrip.sl.r_75 (F := Ideal) arg2 arg3 arg4 arg5 arg6 arg7 arg8 (harg2.unread x2) (harg3.unread x3) (harg4.unread x4) (harg5.unread x5) (harg6.unread x6) (harg7.unread x7) (harg8.unread x8) k)
    (chunkTrip.sl.r_100 (F := Ideal) arg2 arg3 arg4 arg6 arg7 (harg2.unread x2) (harg3.unread x3) (harg4.unread x4) (harg6.unread x6) (harg7.unread x7) k)
    (chunkTrip.sl.r_101 (F := Ideal) arg2 arg3 arg4 arg5 arg6 arg7 arg8 (harg2.unread x2) (harg3.unread x3) (harg4.unread x4) (harg5.unread x5) (harg6.unread x6) (harg7.unread x7) (harg8.unread x8) k) (chunkTrip.sl.r_102 (F := Ideal) arg5 (harg5.unread x5))
    (View.readAt (Elt Ideal) arg9.view (Rect.unit (s := S1024x128) (k0_off2 k) S256x128.size (k0_off2_inb k)).toLoadRect f9)

/-- The trip's one piece: its chunk's rows, at `tripPayload`. -/
theorem tripPieces_eq (k : Fin k0_t1_loop.trips) (f9 : BufTy.Contents (Elt Ideal) arg9.view.ty) :
    tripPieces (F := Ideal) c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8) k f9
      = [⟨Rect.unit (s := S1024x128) (k0_off2 k) S256x128.size (k0_off2_inb k), tripPayload arg2 harg2 arg3 harg3 arg4 harg4 arg5 harg5 arg6 harg6 arg7 harg7 arg8 harg8 arg9 x2 x3 x4 x5 x6 x7 x8 k f9⟩] := by
  unfold tripPieces chunkTrip tripPayload
  rfl

set_option maxHeartbeats 8000000 in
set_option maxRecDepth 65536 in
/-- At row `r` of the chunk and column `o` the stored value is what the block held there plus `quad`. -/
theorem tripPayload_apply (k : Fin k0_t1_loop.trips) (f9 : BufTy.Contents (Elt Ideal) arg9.view.ty) (r : Fin 256) (o : Fin 128) :
    tripPayload arg2 harg2 arg3 harg3 arg4 harg4 arg5 harg5 arg6 harg6 arg7 harg7 arg8 harg8 arg9 x2 x3 x4 x5 x6 x7 x8 k f9 (ix2 r o)
      = arg9.view.read (Elt Ideal) f9 (ix2 (chunkRow k r) o) + quad x2 x3 x4 x5 x6 x7 x8 (chunkRow k r) o := by
  simp only [tripPayload, chunkTrip.sl.r, chunkTrip.sl.r_1, chunkTrip.sl.r_2, chunkTrip.sl.r_3, chunkTrip.sl.r_4, chunkTrip.sl.r_5, chunkTrip.sl.r_6, chunkTrip.sl.r_7, chunkTrip.sl.r_8, chunkTrip.sl.r_9, chunkTrip.sl.r_10, chunkTrip.sl.r_11, chunkTrip.sl.r_12, chunkTrip.sl.r_13, chunkTrip.sl.r_14, chunkTrip.sl.r_15, chunkTrip.sl.r_16, chunkTrip.sl.r_17, chunkTrip.sl.r_18, chunkTrip.sl.r_19, chunkTrip.sl.r_20, chunkTrip.sl.r_21, chunkTrip.sl.r_22, chunkTrip.sl.r_23, chunkTrip.sl.r_24, chunkTrip.sl.r_25, chunkTrip.sl.r_26, chunkTrip.sl.r_27, chunkTrip.sl.r_28, chunkTrip.sl.r_29, chunkTrip.sl.r_30, chunkTrip.sl.r_31, chunkTrip.sl.r_32, chunkTrip.sl.r_33, chunkTrip.sl.r_34, chunkTrip.sl.r_35, chunkTrip.sl.r_36, chunkTrip.sl.r_37, chunkTrip.sl.r_38, chunkTrip.sl.r_39, chunkTrip.sl.r_40, chunkTrip.sl.r_41, chunkTrip.sl.r_42, chunkTrip.sl.r_43, chunkTrip.sl.r_44, chunkTrip.sl.r_45, chunkTrip.sl.r_46, chunkTrip.sl.r_47, chunkTrip.sl.r_48, chunkTrip.sl.r_49, chunkTrip.sl.r_50, chunkTrip.sl.r_51, chunkTrip.sl.r_52, chunkTrip.sl.r_53, chunkTrip.sl.r_54, chunkTrip.sl.r_55, chunkTrip.sl.r_56, chunkTrip.sl.r_57, chunkTrip.sl.r_58, chunkTrip.sl.r_59, chunkTrip.sl.r_60, chunkTrip.sl.r_61, chunkTrip.sl.r_62, chunkTrip.sl.r_63, chunkTrip.sl.r_64, chunkTrip.sl.r_65, chunkTrip.sl.r_66, chunkTrip.sl.r_67, chunkTrip.sl.r_68, chunkTrip.sl.r_69, chunkTrip.sl.r_70, chunkTrip.sl.r_71, chunkTrip.sl.r_72, chunkTrip.sl.r_73, chunkTrip.sl.r_74, chunkTrip.sl.r_75, chunkTrip.sl.r_76, chunkTrip.sl.r_77, chunkTrip.sl.r_78, chunkTrip.sl.r_79, chunkTrip.sl.r_80, chunkTrip.sl.r_81, chunkTrip.sl.r_82, chunkTrip.sl.r_83, chunkTrip.sl.r_84, chunkTrip.sl.r_85, chunkTrip.sl.r_86, chunkTrip.sl.r_87, chunkTrip.sl.r_88, chunkTrip.sl.r_89, chunkTrip.sl.r_90, chunkTrip.sl.r_91, chunkTrip.sl.r_92, chunkTrip.sl.r_93, chunkTrip.sl.r_94, chunkTrip.sl.r_95, chunkTrip.sl.r_96, chunkTrip.sl.r_97, chunkTrip.sl.r_98, chunkTrip.sl.r_99, chunkTrip.sl.r_100, chunkTrip.sl.r_101, chunkTrip.sl.r_102, chunkTrip.sl.v10, chunkTrip.sl.v311, chunkTrip.sl.v612, chunkTrip.sl.v913, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106,
    mulf_apply, addf_apply, logistic, Ideal.logistic_def, broadcast_apply,
    shapeCast_self, shapeCast_1ab_ab_apply, shapeCast_1abc_abc_apply, shapeCast_1a_a_apply, shapeCast_a_1a_apply, vec_of_1x1x128, broadcastTo_1b_ab_apply, col_spread, row5x128_0, row5x128_1, row5x128_2, row5x128_3, row5x128_4, row5x5x128_0_0, row5x5x128_0_1, row5x5x128_0_2, row5x5x128_0_3, row5x5x128_0_4, row5x5x128_1_0, row5x5x128_1_1, row5x5x128_1_2, row5x5x128_1_3, row5x5x128_1_4, row5x5x128_2_0, row5x5x128_2_1, row5x5x128_2_2, row5x5x128_2_3, row5x5x128_2_4, row5x5x128_3_0, row5x5x128_3_1, row5x5x128_3_2, row5x5x128_3_3, row5x5x128_3_4, row5x5x128_4_0, row5x5x128_4_1, row5x5x128_4_2, row5x5x128_4_3, row5x5x128_4_4, load5x128_0, load5x5x128_0, load1x128_0, xcol_0, load5x128_1, load5x5x128_1, load1x128_1, xcol_1, load5x128_2, load5x5x128_2, load1x128_2, xcol_2, load5x128_3, load5x5x128_3, load1x128_3, xcol_3, chunk_rows]
  rfl

end

end Cert.KernelIdeal.Hand
end
-- ==== Proof.ChunkSums.lean ====
import proofs.«141808_j22789096472783_2_alg».proof.Proof.TripValue
import Idealize.ShloMosaic.Lib.WritesUnit
import proofs.«141808_j22789096472783_2_alg».proof.Proof.KernelOrder

set_option maxRecDepth 16384

noncomputable section

namespace Cert.KernelIdeal.Hand

open Cert.KernelIdeal Cert.KernelIdeal.Gen Idealize.ShloMosaic.ValueIdx Cert.EdgeNets

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The four trips together, and the body's two cases at one entry

Trip `k` rewrites rows `256·k … 256·k + 255` of the block and leaves the others alone, and what it adds at a row
depends on that row only; so after `n` trips the rows below `256·n` hold what they held plus `quad`, the others
what they held. -/

theorem trips_four : k0_t1_loop.trips = 4 := by decide

section
variable (c : Dev nD) (i : grid0.Coords) (arg2 : Memref sig .tc .vmem S4x1024x1 .f32) (harg2 : arg2.IsWhole) (arg3 : Memref sig .tc .vmem S4x5x128 .f32) (harg3 : arg3.IsWhole) (arg4 : Memref sig .tc .vmem S4x5x5x128 .f32) (harg4 : arg4.IsWhole) (arg5 : Memref sig .tc .vmem S4x5x128 .f32) (harg5 : arg5.IsWhole) (arg6 : Memref sig .tc .vmem S4x5x128 .f32) (harg6 : arg6.IsWhole) (arg7 : Memref sig .tc .vmem S4x5x128 .f32) (harg7 : arg7.IsWhole) (arg8 : Memref sig .tc .vmem S4x1x128 .f32) (harg8 : arg8.IsWhole) (arg9 : Memref sig .tc .vmem S1024x128 .f32) (harg9 : arg9.IsWhole) (x2 : Vec Ideal S4x1024x1 .f32) (x3 : Vec Ideal S4x5x128 .f32) (x4 : Vec Ideal S4x5x5x128 .f32) (x5 : Vec Ideal S4x5x128 .f32) (x6 : Vec Ideal S4x5x128 .f32) (x7 : Vec Ideal S4x5x128 .f32) (x8 : Vec Ideal S4x1x128 .f32)

theorem read_after_trips (G : BufTy.Contents (Elt Ideal) arg9.view.ty) (n : ℕ) (hn : n ≤ k0_t1_loop.trips) (R : Fin 1024) (o : Fin 128) :
    arg9.view.read (Elt Ideal) (arg9.view.writes (Elt Ideal) G
        (piecesBefore (F := Ideal) c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8) G n)) (ix2 R o)
      = if R.val < 256 * n then arg9.view.read (Elt Ideal) G (ix2 R o) + quad x2 x3 x4 x5 x6 x7 x8 R o
        else arg9.view.read (Elt Ideal) G (ix2 R o) := by
  induction n with
  | zero =>
    rw [piecesBefore, View.writes_nil, if_neg (by omega)]
  | succ n ih =>
    have hlt : n < k0_t1_loop.trips := hn
    have ih' := ih (Nat.le_of_lt hlt)
    have e := piecesBefore_succ (F := Ideal) c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8) G ⟨n, hlt⟩
    rw [show (⟨n, hlt⟩ : Fin k0_t1_loop.trips).val = n from rfl] at e
    rw [e, tripPieces_eq, List.singleton_append]
    by_cases hR : 256 * n ≤ R.val ∧ R.val < 256 * n + 256
    · have hr : R.val - 256 * n < 256 := by omega
      rw [View.read_writes_cons_rows_of_mem arg9.view G (k0_off2_inb _) _ _ (ix2 R o) (ix2 (⟨R.val - 256 * n, hr⟩ : Fin 256) o)
        (k0_off2_eq _) (by show R.val = 256 * n + (R.val - 256 * n); omega) rfl]
      rw [tripPayload_apply]
      have hrow : chunkRow ⟨n, hlt⟩ (⟨R.val - 256 * n, hr⟩ : Fin 256) = R := Fin.ext (by show 256 * n + (R.val - 256 * n) = R.val; omega)
      rw [hrow, ih', if_neg (by omega), if_pos (by omega)]
    · rw [View.read_writes_cons_rows_of_not_mem arg9.view G (k0_off2_inb _) _ _ (ix2 R o) (k0_off2_eq _) (W := 256) rfl
        (by show R.val < 256 * n ∨ 256 * n + 256 ≤ R.val; omega), ih']
      by_cases h1 : R.val < 256 * n
      · rw [if_pos h1, if_pos (by omega)]
      · rw [if_neg h1, if_neg (by omega)]

/-- A later point's pieces are the four trips' over what the block held. -/
theorem runLater_pieces (hc0 : ¬startsBlock i) (xo : Vec Ideal S1024x128 .f32) :
    (runLater (F := Ideal) c i arg2 harg2 arg3 harg3 arg4 harg4 arg5 harg5 arg6 harg6 arg7 harg7 arg8 harg8 arg9 harg9 hc0 x2 x3 x4 x5 x6 x7 x8 xo).1
      = piecesBefore (F := Ideal) c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8) (harg9.unread xo) k0_t1_loop.trips := by
  unfold runLater; rfl

/-- At a later point of a batch block every entry gains `quad`. -/
theorem blockAfterLater_apply (hc0 : ¬startsBlock i) (xo : Vec Ideal S1024x128 .f32) (R : Fin 1024) (o : Fin 128) :
    blockAfterLater c i arg2 harg2 arg3 harg3 arg4 harg4 arg5 harg5 arg6 harg6 arg7 harg7 arg8 harg8 arg9 harg9 hc0 x2 x3 x4 x5 x6 x7 x8 xo (ix2 R o) = xo (ix2 R o) + quad x2 x3 x4 x5 x6 x7 x8 R o := by
  unfold blockAfterLater
  have h := View.read_writes_of_cover arg9.view (harg9.unread xo) VO VO.junk _ (cover_later c i arg2 harg2 arg3 harg3 arg4 harg4 arg5 harg5 arg6 harg6 arg7 harg7 arg8 harg8 arg9 harg9 hc0 x2 x3 x4 x5 x6 x7 x8 xo)
  rw [← h, runLater_pieces, read_after_trips c i arg2 harg2 arg3 harg3 arg4 harg4 arg5 harg5 arg6 harg6 arg7 harg7 arg8 harg8 arg9 harg9 x2 x3 x4 x5 x6 x7 x8 (harg9.unread xo) k0_t1_loop.trips le_rfl R o,
    if_pos (by rw [trips_four]; have := R.isLt; omega), harg9.read_unread]

/-- A starting point's pieces: the four trips' over the cleared block, then the clearing store. -/
theorem runStart_pieces (hc0 : startsBlock i) :
    (runStart (F := Ideal) c i arg2 harg2 arg3 harg3 arg4 harg4 arg5 harg5 arg6 harg6 arg7 harg7 arg8 harg8 arg9 harg9 hc0 x2 x3 x4 x5 x6 x7 x8).1
      = piecesBefore (F := Ideal) c i arg2 harg2 arg3 harg3 arg4 harg4 arg5 harg5 arg6 harg6 arg7 harg7 arg8 harg8 arg9 harg9 (harg2.unread x2) (harg3.unread x3) (harg4.unread x4) (harg5.unread x5) (harg6.unread x6) (harg7.unread x7) (harg8.unread x8) (arg9.view.writes (Elt Ideal) arg9.view.junk runStart.sl.H9_1) k0_t1_loop.trips
        ++ runStart.sl.H9_1 := by
  unfold runStart; rfl

/-- At a point that starts a batch block every entry is the zero the block is cleared to, plus `quad`. -/
theorem blockAfterStart_apply (hc0 : startsBlock i) (R : Fin 1024) (o : Fin 128) :
    blockAfterStart c i arg2 harg2 arg3 harg3 arg4 harg4 arg5 harg5 arg6 harg6 arg7 harg7 arg8 harg8 arg9 harg9 hc0 x2 x3 x4 x5 x6 x7 x8 (ix2 R o) = Ideal.ofBits .f32 0x00000000#32 + quad x2 x3 x4 x5 x6 x7 x8 R o := by
  unfold blockAfterStart
  have h := View.read_writes_of_cover arg9.view arg9.view.junk VO VO.junk _ (cover_start c i arg2 harg2 arg3 harg3 arg4 harg4 arg5 harg5 arg6 harg6 arg7 harg7 arg8 harg8 arg9 harg9 hc0 x2 x3 x4 x5 x6 x7 x8)
  rw [← h, runStart_pieces, View.writes_append,
    read_after_trips c i arg2 harg2 arg3 harg3 arg4 harg4 arg5 harg5 arg6 harg6 arg7 harg7 arg8 harg8 arg9 harg9 x2 x3 x4 x5 x6 x7 x8 (arg9.view.writes (Elt Ideal) arg9.view.junk runStart.sl.H9_1) k0_t1_loop.trips le_rfl R o,
    if_pos (by rw [trips_four]; have := R.isLt; omega)]
  congr 1
  unfold runStart.sl.H9_1
  rw [View.read_writes_cons_unit_of_mem arg9.view arg9.view.junk inb_S1024x128_S1024x128_0_0 _ [] (ix2 R o) (ix2 R o) rfl
    (fun a => by
      match a with
      | ⟨0, _⟩ => show R.val = 0 + R.val; omega
      | ⟨1, _⟩ => show o.val = 0 + o.val; omega)]
  rfl

end

end Cert.KernelIdeal.Hand
end
-- ==== Proof.OrderLaws.lean ====
import proofs.«141808_j22789096472783_2_alg».proof.Proof.KernelOrder

/-!
# The kernel's order of operations gives the specification's values

On the extended reals addition and multiplication are commutative and associative, so a chain of multiply-adds
that starts from the bias equals the sum of the products plus the bias, and a running sum of groups of four
equals the sum of all the terms. The float zero word denotes the real zero, and adding it on the left changes nothing.
-/

noncomputable section

namespace Cert.EdgeNets

open Idealize.ShloMosaic Idealize.ShloMosaic.ValueIdx
open scoped BigOperators

/-- The two spellings of the activation are the same function. -/
theorem kact_eq_act (v : EReal) : kact v = act v := rfl

section
variable (W0 b0 : Sw0.Idx → EReal) (W1 : Sw1.Idx → EReal) (b1 : Sw0.Idx → EReal) (W2 : Sw2.Idx → EReal) (b2 : Sb2.Idx → EReal)
  (n : Fin 16384) (X : EReal)

/-- First hidden layer: the sum over the one input is its one term, and the product commutes. -/
theorem kh0_eq_hid0 (h : Fin 5) :
    kh0 X (fun h => W0 (ix3 n h (0 : Fin 1))) (fun h => b0 (ix3 n h (0 : Fin 1))) h = hid0 W0 b0 n X h := by
  unfold kh0 hid0
  rw [kact_eq_act, Fin.sum_univ_one, mul_comm]

/-- Second hidden layer before the activation: the chain from the bias is the sum of the five products plus the bias. -/
theorem kacc1_eq (hp : Fin 5) :
    kacc1 X (fun h => W0 (ix3 n h (0 : Fin 1))) (fun h => b0 (ix3 n h (0 : Fin 1))) (fun hp h => W1 (ix3 n hp h))
        (fun h => b1 (ix3 n h (0 : Fin 1))) hp
      = (∑ k : Fin 5, W1 (ix3 n hp k) * hid0 W0 b0 n X k) + b1 (ix3 n hp 0) := by
  unfold kacc1
  simp only [kh0_eq_hid0]
  rw [Fin.sum_univ_five]
  ac_rfl

/-- Second hidden layer. -/
theorem kh1_eq_hid1 (hp : Fin 5) :
    kh1 X (fun h => W0 (ix3 n h (0 : Fin 1))) (fun h => b0 (ix3 n h (0 : Fin 1))) (fun hp h => W1 (ix3 n hp h))
        (fun h => b1 (ix3 n h (0 : Fin 1))) hp
      = hid1 W0 b0 W1 b1 n X hp := by
  unfold kh1 hid1
  rw [kact_eq_act, kacc1_eq]

/-- The network's output in the kernel's order is the specification's. -/
theorem kout_eq_netOut :
    kout X (fun h => W0 (ix3 n h (0 : Fin 1))) (fun h => b0 (ix3 n h (0 : Fin 1))) (fun hp h => W1 (ix3 n hp h))
        (fun h => b1 (ix3 n h (0 : Fin 1))) (fun h => W2 (ix3 n (0 : Fin 1) h)) (b2 (ix3 n (0 : Fin 1) (0 : Fin 1)))
      = netOut W0 b0 W1 b1 W2 b2 n X := by
  unfold kout netOut
  simp only [kh1_eq_hid1]
  rw [Fin.sum_univ_five]
  ac_rfl

end

/-- A running sum that starts from the float zero: term 0 is added to the zero, every later term on the right. -/
def runSum (Q : ℕ → EReal) : ℕ → EReal
  | 0 => Ideal.ofBits .f32 0x00000000#32 + Q 0
  | (n + 1) => runSum Q n + Q (n + 1)

/-- The running sum is the sum of the terms so far. -/
theorem runSum_eq_sum (Q : ℕ → EReal) (n : ℕ) : runSum Q n = ∑ j ∈ Finset.range (n + 1), Q j := by
  induction n with
  | zero => rw [runSum, Ideal.ofBits_zero_f32, zero_add, Finset.sum_range_one]
  | succ n ih => rw [runSum, ih, Finset.sum_range_succ (n := n + 1)]

/-- Groups of four consecutive terms, summed over the first m groups, are the first 4·m terms. -/
theorem sum_quads (e : ℕ → EReal) (m : ℕ) :
    ∑ j ∈ Finset.range m, (((e (4 * j) + e (4 * j + 1)) + e (4 * j + 2)) + e (4 * j + 3))
      = ∑ i ∈ Finset.range (4 * m), e i := by
  induction m with
  | zero => rfl
  | succ m ih =>
    rw [Finset.sum_range_succ, ih, show 4 * (m + 1) = 4 * m + 4 from by ring, Finset.sum_range_succ,
      Finset.sum_range_succ, Finset.sum_range_succ, Finset.sum_range_succ]
    ac_rfl

/-- Thirty-two groups of four, each added to a zero and then to the running sum, are the 128 terms. -/
theorem runSum_quads (e : ℕ → EReal) :
    runSum (fun j => (((Ideal.ofBits .f32 0x00000000#32 + e (4 * j)) + e (4 * j + 1)) + e (4 * j + 2)) + e (4 * j + 3)) 31
      = Ideal.ofBits .f32 0x00000000#32 + ∑ i : Fin 128, e i.val := by
  rw [runSum_eq_sum]
  simp only [Ideal.ofBits_zero_f32, zero_add]
  rw [sum_quads e 32, Fin.sum_univ_eq_sum_range (fun i => e i) 128]

end Cert.EdgeNets

end
-- ==== Proof.PointSums.lean ====
import proofs.«141808_j22789096472783_2_alg».proof.Proof.ChunkSums
import proofs.«141808_j22789096472783_2_alg».proof.Proof.OrderLaws

set_option maxRecDepth 16384

noncomputable section

namespace Cert.KernelIdeal.Hand

open Cert.KernelIdeal Cert.KernelIdeal.Gen Idealize.ShloMosaic.ValueIdx Cert.EdgeNets

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The accumulation over the points of a batch block

The point at grid position `n` adds, at entry `(R, o)` of its batch block, `quad` of its seven input blocks.
The output block is cleared at the first point of a batch block and kept between its points, so after position
`n` it holds the running sum of what the points of the batch block added so far. -/

variable (m : (ℓ : Loc nD τ sig) → Buf (Elt Ideal) ℓ) (c : Dev nD)

/-- What the point at position `n` adds at entry `(R, o)`. -/
def pointAdds (n : ℕ) (R : Fin 1024) (o : Fin 128) : EReal :=
  if h : n < cfg0.N then quad (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) R o else 0

theorem blockAt_apply (t : Fin cfg0.N) (R : Fin 1024) (o : Fin 128) :
    blockAt m c t.val t.isLt (ix2 R o) = runSum (fun j => pointAdds m c (32 * (t.val / 32) + j) R o) (t.val % 32) := by
  obtain ⟨n, hn⟩ := t
  induction n with
  | zero =>
    rw [blockAt_start m c ⟨0, hn⟩ (Nat.zero_mod 32), blockAfterStart_apply]
    show _ = runSum _ (0 % 32)
    rw [Nat.zero_mod, runSum]
    beta_reduce
    rw [show 32 * (0 / 32) + 0 = 0 from rfl, pointAdds, dif_pos hn]
  | succ n ih =>
    have ih' := ih (Nat.lt_of_succ_lt hn)
    by_cases h0 : (n + 1) % 32 = 0
    · have e1 : 32 * ((n + 1) / 32) + 0 = n + 1 := by omega
      rw [blockAt_start m c ⟨n + 1, hn⟩ h0, blockAfterStart_apply]
      show _ = runSum _ ((n + 1) % 32)
      rw [h0, runSum]
      beta_reduce
      rw [e1, pointAdds, dif_pos hn]
    · have e1 : (n + 1) / 32 = n / 32 := by omega
      have e2 : (n + 1) % 32 = n % 32 + 1 := by omega
      have e3 : 32 * (n / 32) + (n % 32 + 1) = n + 1 := by omega
      rw [blockAt_later m c ⟨n + 1, hn⟩ h0, blockAfterLater_apply]
      show blockAt m c n _ (ix2 R o) + _ = runSum _ ((n + 1) % 32)
      rw [ih', e2, runSum]
      beta_reduce
      rw [e1, e3]
      congr 1
      rw [pointAdds, dif_pos hn]

end Cert.KernelIdeal.Hand
end
-- ==== Proof.WindowBlocks.lean ====
import proofs.«141808_j22789096472783_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostSide

open Cert.KernelIdeal Cert.KernelIdeal.Gen Idealize.ShloMosaic Idealize.ShloMosaic.ValueIdx

variable {F : FTy → Type} [FloatOps F] (m : (ℓ : Loc nD τ sig) → Buf (Elt F) ℓ)

/-! ## The grid -/

/-- Point `t` of the grid `(2, 32)` has coordinates `(t / 32, t % 32)`. -/
theorem coords_facts : ∀ t : Fin grid0.N, (grid0.coords t 0).val = t.val / 32 ∧ (grid0.coords t 1).val = t.val % 32 :=
  (by decide +kernel : ∀ t : Fin grid0.N, _)

/-! ## Rows regrouped in 128 groups of 128, then each group transposed

A `[16384, 5]` array whose row `n = 128 · I + o` is regrouped as `[128, 128, 5]` and each group transposed to
`[128, 5, 128]` holds, at `(I, h, o)`, the entry `(n, h)`. -/

theorem rows_cols_apply {α : Type} (x : S16384x5.Idx → α) (I : Fin 128) (h : Fin 5) (o : Fin 128) (n : Fin 16384) (hn : n.val = 128 * I.val + o.val) :
    transpose S128x5x128 [0, 2, 1] (shapeCast S128x128x5 x shapeCasts_S16384x5_S128x128x5) transposes_S128x128x5_S128x5x128_0_2_1 (ix3 I h o)
      = x (ix2 n h) := by
  rw [transpose_ix3_021_apply]
  exact shapeCast_apply _ _ (ix3 I o h) (ix2 n h) (by
    rw [Shape.rowMajor_val_three, Shape.rowMajor_val_two]
    show n.val * 5 + h.val = (I.val * 128 + o.val) * 5 + h.val
    omega)

/-! ## The four windows of blocks `(4, 5, 128)` -/

/-- Window 1's block index at point `t`: `(t % 32, 0, 0)`. -/
theorem index1_facts : ∀ t : Fin cfg0.N, win0_1.index t (0 : Fin 3) = t.val % 32 ∧ win0_1.index t (1 : Fin 3) = 0 ∧ win0_1.index t (2 : Fin 3) = 0 :=
  (by decide +kernel : ∀ t : Fin grid0.N, _)

/-- The array window 1 stages, as the host operations build it from `main_arg1`. -/
theorem V_main_v4 (c : Dev nD) : (V m c main_v4 : S128x5x128.Idx → Elt F .f32)
    = transpose S128x5x128 [0, 2, 1] (shapeCast S128x128x5 (shapeCast S16384x5 (m ((c.tc : Thread nD τ).loc main_arg1)) shapeCasts_S16384x5x1_S16384x5) shapeCasts_S16384x5_S128x128x5) transposes_S128x128x5_S128x5x128_0_2_1 := by
  dsimp only [Gen.V, Gen.hostOps0]; after_results; rfl

/-- At `(I, h, o)` the array holds the first argument's entry `(128 · I + o, h, 0)`. -/
theorem V_main_v4_apply (c : Dev nD) (I : Fin 128) (h : Fin 5) (o : Fin 128) (n : Fin 16384) (hn : n.val = 128 * I.val + o.val) :
    V m c main_v4 (ix3 I h o) = m ((c.tc : Thread nD τ).loc main_arg1) (ix3 n h (0 : Fin 1)) := by
  rw [V_main_v4, rows_cols_apply _ I h o n hn]
  exact shapeCast_apply _ _ (ix2 n h) (ix3 n h (0 : Fin 1)) (by
    rw [Shape.rowMajor_val_three, Shape.rowMajor_val_two]
    show (n.val * 5 + h.val) * 1 + 0 = n.val * 5 + h.val
    omega)

theorem iblk1_apply (c : Dev nD) (t : Fin cfg0.N) (ii : Fin 4) (h : Fin 5) (o : Fin 128) (n : Fin 16384)
    (hn : n.val = 128 * (4 * (t.val % 32) + ii.val) + o.val) :
    iblk m c 1 t (ix3 ii h o) = m ((c.tc : Thread nD τ).loc main_arg1) (ix3 n h (0 : Fin 1)) := by
  have hI : 4 * (t.val % 32) + ii.val < 128 := by omega
  rw [← V_main_v4_apply m c ⟨4 * (t.val % 32) + ii.val, hI⟩ h o n hn]
  unfold Gen.iblk
  show V m c main_v4 (((cfg0.win 1).blk t).view.emb (ix3 ii h o)) = _
  refine congrArg _ (funext fun a => Fin.ext ?_)
  obtain ⟨e0, e1, e2⟩ := index1_facts t
  match a with
  | ⟨0, _⟩ => show win0_1.index t (0 : Fin 3) * 4 + 1 * ii.val = 4 * (t.val % 32) + ii.val; omega
  | ⟨1, _⟩ => show win0_1.index t (1 : Fin 3) * 5 + 1 * h.val = h.val; omega
  | ⟨2, _⟩ => show win0_1.index t (2 : Fin 3) * 128 + 1 * o.val = o.val; omega

/-- Window 3's block index at point `t`: `(t % 32, 0, 0)`. -/
theorem index3_facts : ∀ t : Fin cfg0.N, win0_3.index t (0 : Fin 3) = t.val % 32 ∧ win0_3.index t (1 : Fin 3) = 0 ∧ win0_3.index t (2 : Fin 3) = 0 :=
  (by decide +kernel : ∀ t : Fin grid0.N, _)

/-- The array window 3 stages, as the host operations build it from `main_arg5`. -/
theorem V_main_v7 (c : Dev nD) : (V m c main_v7 : S128x5x128.Idx → Elt F .f32)
    = transpose S128x5x128 [0, 2, 1] (shapeCast S128x128x5 (shapeCast S16384x5 (m ((c.tc : Thread nD τ).loc main_arg5)) shapeCasts_S16384x1x5_S16384x5) shapeCasts_S16384x5_S128x128x5) transposes_S128x128x5_S128x5x128_0_2_1 := by
  dsimp only [Gen.V, Gen.hostOps0]; after_results; rfl

/-- At `(I, h, o)` the array holds the argument's entry `(128 · I + o, 0, h)`. -/
theorem V_main_v7_apply (c : Dev nD) (I : Fin 128) (h : Fin 5) (o : Fin 128) (n : Fin 16384) (hn : n.val = 128 * I.val + o.val) :
    V m c main_v7 (ix3 I h o) = m ((c.tc : Thread nD τ).loc main_arg5) (ix3 n (0 : Fin 1) h) := by
  rw [V_main_v7, rows_cols_apply _ I h o n hn]
  exact shapeCast_apply _ _ (ix2 n h) (ix3 n (0 : Fin 1) h) (by
    rw [Shape.rowMajor_val_three, Shape.rowMajor_val_two]
    show (n.val * 1 + 0) * 5 + h.val = n.val * 5 + h.val
    omega)

theorem iblk3_apply (c : Dev nD) (t : Fin cfg0.N) (ii : Fin 4) (h : Fin 5) (o : Fin 128) (n : Fin 16384)
    (hn : n.val = 128 * (4 * (t.val % 32) + ii.val) + o.val) :
    iblk m c 3 t (ix3 ii h o) = m ((c.tc : Thread nD τ).loc main_arg5) (ix3 n (0 : Fin 1) h) := by
  have hI : 4 * (t.val % 32) + ii.val < 128 := by omega
  rw [← V_main_v7_apply m c ⟨4 * (t.val % 32) + ii.val, hI⟩ h o n hn]
  unfold Gen.iblk
  show V m c main_v7 (((cfg0.win 3).blk t).view.emb (ix3 ii h o)) = _
  refine congrArg _ (funext fun a => Fin.ext ?_)
  obtain ⟨e0, e1, e2⟩ := index3_facts t
  match a with
  | ⟨0, _⟩ => show win0_3.index t (0 : Fin 3) * 4 + 1 * ii.val = 4 * (t.val % 32) + ii.val; omega
  | ⟨1, _⟩ => show win0_3.index t (1 : Fin 3) * 5 + 1 * h.val = h.val; omega
  | ⟨2, _⟩ => show win0_3.index t (2 : Fin 3) * 128 + 1 * o.val = o.val; omega

/-- Window 4's block index at point `t`: `(t % 32, 0, 0)`. -/
theorem index4_facts : ∀ t : Fin cfg0.N, win0_4.index t (0 : Fin 3) = t.val % 32 ∧ win0_4.index t (1 : Fin 3) = 0 ∧ win0_4.index t (2 : Fin 3) = 0 :=
  (by decide +kernel : ∀ t : Fin grid0.N, _)

/-- The array window 4 stages, as the host operations build it from `main_arg2`. -/
theorem V_main_v12 (c : Dev nD) : (V m c main_v12 : S128x5x128.Idx → Elt F .f32)
    = transpose S128x5x128 [0, 2, 1] (shapeCast S128x128x5 (shapeCast S16384x5 (m ((c.tc : Thread nD τ).loc main_arg2)) shapeCasts_S16384x5x1_S16384x5) shapeCasts_S16384x5_S128x128x5) transposes_S128x128x5_S128x5x128_0_2_1 := by
  dsimp only [Gen.V, Gen.hostOps0]; after_results; rfl

/-- At `(I, h, o)` the array holds the argument's entry `(128 · I + o, h, 0)`. -/
theorem V_main_v12_apply (c : Dev nD) (I : Fin 128) (h : Fin 5) (o : Fin 128) (n : Fin 16384) (hn : n.val = 128 * I.val + o.val) :
    V m c main_v12 (ix3 I h o) = m ((c.tc : Thread nD τ).loc main_arg2) (ix3 n h (0 : Fin 1)) := by
  rw [V_main_v12, rows_cols_apply _ I h o n hn]
  exact shapeCast_apply _ _ (ix2 n h) (ix3 n h (0 : Fin 1)) (by
    rw [Shape.rowMajor_val_three, Shape.rowMajor_val_two]
    show (n.val * 5 + h.val) * 1 + 0 = n.val * 5 + h.val
    omega)

theorem iblk4_apply (c : Dev nD) (t : Fin cfg0.N) (ii : Fin 4) (h : Fin 5) (o : Fin 128) (n : Fin 16384)
    (hn : n.val = 128 * (4 * (t.val % 32) + ii.val) + o.val) :
    iblk m c 4 t (ix3 ii h o) = m ((c.tc : Thread nD τ).loc main_arg2) (ix3 n h (0 : Fin 1)) := by
  have hI : 4 * (t.val % 32) + ii.val < 128 := by omega
  rw [← V_main_v12_apply m c ⟨4 * (t.val % 32) + ii.val, hI⟩ h o n hn]
  unfold Gen.iblk
  show V m c main_v12 (((cfg0.win 4).blk t).view.emb (ix3 ii h o)) = _
  refine congrArg _ (funext fun a => Fin.ext ?_)
  obtain ⟨e0, e1, e2⟩ := index4_facts t
  match a with
  | ⟨0, _⟩ => show win0_4.index t (0 : Fin 3) * 4 + 1 * ii.val = 4 * (t.val % 32) + ii.val; omega
  | ⟨1, _⟩ => show win0_4.index t (1 : Fin 3) * 5 + 1 * h.val = h.val; omega
  | ⟨2, _⟩ => show win0_4.index t (2 : Fin 3) * 128 + 1 * o.val = o.val; omega

/-- Window 5's block index at point `t`: `(t % 32, 0, 0)`. -/
theorem index5_facts : ∀ t : Fin cfg0.N, win0_5.index t (0 : Fin 3) = t.val % 32 ∧ win0_5.index t (1 : Fin 3) = 0 ∧ win0_5.index t (2 : Fin 3) = 0 :=
  (by decide +kernel : ∀ t : Fin grid0.N, _)

/-- The array window 5 stages, as the host operations build it from `main_arg4`. -/
theorem V_main_v15 (c : Dev nD) : (V m c main_v15 : S128x5x128.Idx → Elt F .f32)
    = transpose S128x5x128 [0, 2, 1] (shapeCast S128x128x5 (shapeCast S16384x5 (m ((c.tc : Thread nD τ).loc main_arg4)) shapeCasts_S16384x5x1_S16384x5) shapeCasts_S16384x5_S128x128x5) transposes_S128x128x5_S128x5x128_0_2_1 := by
  dsimp only [Gen.V, Gen.hostOps0]; after_results; rfl

/-- At `(I, h, o)` the array holds the argument's entry `(128 · I + o, h, 0)`. -/
theorem V_main_v15_apply (c : Dev nD) (I : Fin 128) (h : Fin 5) (o : Fin 128) (n : Fin 16384) (hn : n.val = 128 * I.val + o.val) :
    V m c main_v15 (ix3 I h o) = m ((c.tc : Thread nD τ).loc main_arg4) (ix3 n h (0 : Fin 1)) := by
  rw [V_main_v15, rows_cols_apply _ I h o n hn]
  exact shapeCast_apply _ _ (ix2 n h) (ix3 n h (0 : Fin 1)) (by
    rw [Shape.rowMajor_val_three, Shape.rowMajor_val_two]
    show (n.val * 5 + h.val) * 1 + 0 = n.val * 5 + h.val
    omega)

theorem iblk5_apply (c : Dev nD) (t : Fin cfg0.N) (ii : Fin 4) (h : Fin 5) (o : Fin 128) (n : Fin 16384)
    (hn : n.val = 128 * (4 * (t.val % 32) + ii.val) + o.val) :
    iblk m c 5 t (ix3 ii h o) = m ((c.tc : Thread nD τ).loc main_arg4) (ix3 n h (0 : Fin 1)) := by
  have hI : 4 * (t.val % 32) + ii.val < 128 := by omega
  rw [← V_main_v15_apply m c ⟨4 * (t.val % 32) + ii.val, hI⟩ h o n hn]
  unfold Gen.iblk
  show V m c main_v15 (((cfg0.win 5).blk t).view.emb (ix3 ii h o)) = _
  refine congrArg _ (funext fun a => Fin.ext ?_)
  obtain ⟨e0, e1, e2⟩ := index5_facts t
  match a with
  | ⟨0, _⟩ => show win0_5.index t (0 : Fin 3) * 4 + 1 * ii.val = 4 * (t.val % 32) + ii.val; omega
  | ⟨1, _⟩ => show win0_5.index t (1 : Fin 3) * 5 + 1 * h.val = h.val; omega
  | ⟨2, _⟩ => show win0_5.index t (2 : Fin 3) * 128 + 1 * o.val = o.val; omega

/-! ## Window 2: blocks `(4, 5, 5, 128)` -/

/-- Window 2's block index at point `t`: `(t % 32, 0, 0, 0)`. -/
theorem index2_facts : ∀ t : Fin cfg0.N, win0_2.index t (0 : Fin 4) = t.val % 32 ∧ win0_2.index t (1 : Fin 4) = 0 ∧ win0_2.index t (2 : Fin 4) = 0 ∧ win0_2.index t (3 : Fin 4) = 0 :=
  (by decide +kernel : ∀ t : Fin grid0.N, _)

/-- The array window 2 stages, as the host operations build it from `main_arg3`. -/
theorem V_main_v9 (c : Dev nD) : (V m c main_v9 : S128x5x5x128.Idx → Elt F .f32)
    = transpose S128x5x5x128 [0, 2, 3, 1] (shapeCast S128x128x5x5 (m ((c.tc : Thread nD τ).loc main_arg3)) shapeCasts_S16384x5x5_S128x128x5x5) transposes_S128x128x5x5_S128x5x5x128_0_2_3_1 := by
  dsimp only [Gen.V, Gen.hostOps0]; after_results; rfl

/-- At `(I, h, h', o)` the array holds the argument's entry `(128 · I + o, h, h')`. -/
theorem V_main_v9_apply (c : Dev nD) (I : Fin 128) (h h' : Fin 5) (o : Fin 128) (n : Fin 16384) (hn : n.val = 128 * I.val + o.val) :
    V m c main_v9 (ix4 I h h' o) = m ((c.tc : Thread nD τ).loc main_arg3) (ix3 n h h') := by
  rw [V_main_v9]
  rw [transpose_apply _ _ _ (ix4 I h h' o) (ix4 I o h h') (fun b => match b with | ⟨0, _⟩ => rfl | ⟨1, _⟩ => rfl | ⟨2, _⟩ => rfl | ⟨3, _⟩ => rfl)]
  exact shapeCast_apply _ _ (ix4 I o h h') (ix3 n h h') (by
    rw [Shape.rowMajor_val_three, Shape.rowMajor_val_four]
    show (n.val * 5 + h.val) * 5 + h'.val = ((I.val * 128 + o.val) * 5 + h.val) * 5 + h'.val
    rw [hn, Nat.mul_comm 128 I.val])

theorem iblk2_apply (c : Dev nD) (t : Fin cfg0.N) (ii : Fin 4) (h h' : Fin 5) (o : Fin 128) (n : Fin 16384)
    (hn : n.val = 128 * (4 * (t.val % 32) + ii.val) + o.val) :
    iblk m c 2 t (ix4 ii h h' o) = m ((c.tc : Thread nD τ).loc main_arg3) (ix3 n h h') := by
  have hI : 4 * (t.val % 32) + ii.val < 128 := by omega
  rw [← V_main_v9_apply m c ⟨4 * (t.val % 32) + ii.val, hI⟩ h h' o n hn]
  unfold Gen.iblk
  show V m c main_v9 (((cfg0.win 2).blk t).view.emb (ix4 ii h h' o)) = _
  refine congrArg _ (funext fun a => Fin.ext ?_)
  obtain ⟨e0, e1, e2, e3⟩ := index2_facts t
  match a with
  | ⟨0, _⟩ => show win0_2.index t (0 : Fin 4) * 4 + 1 * ii.val = 4 * (t.val % 32) + ii.val; omega
  | ⟨1, _⟩ => show win0_2.index t (1 : Fin 4) * 5 + 1 * h.val = h.val; omega
  | ⟨2, _⟩ => show win0_2.index t (2 : Fin 4) * 5 + 1 * h'.val = h'.val; omega
  | ⟨3, _⟩ => show win0_2.index t (3 : Fin 4) * 128 + 1 * o.val = o.val; omega

/-! ## Window 6: blocks `(4, 1, 128)` -/

/-- Window 6's block index at point `t`: `(t % 32, 0, 0)`. -/
theorem index6_facts : ∀ t : Fin cfg0.N, win0_6.index t (0 : Fin 3) = t.val % 32 ∧ win0_6.index t (1 : Fin 3) = 0 ∧ win0_6.index t (2 : Fin 3) = 0 :=
  (by decide +kernel : ∀ t : Fin grid0.N, _)

/-- The array window 6 stages, as the host operations build it from `main_arg6`. -/
theorem V_main_v18 (c : Dev nD) : (V m c main_v18 : S128x1x128.Idx → Elt F .f32)
    = broadcastInDim S128x1x128 ![0, 2] bcast_S128x128_S128x1x128_0_2 (shapeCast S128x128 (shapeCast S16384 (m ((c.tc : Thread nD τ).loc main_arg6)) shapeCasts_S16384x1x1_S16384) shapeCasts_S16384_S128x128) := by
  dsimp only [Gen.V, Gen.hostOps0]; after_results; rfl

/-- At `(I, 0, o)` the array holds the argument's entry `(128 · I + o, 0, 0)`. -/
theorem V_main_v18_apply (c : Dev nD) (I : Fin 128) (u : Fin 1) (o : Fin 128) (n : Fin 16384) (hn : n.val = 128 * I.val + o.val) :
    V m c main_v18 (ix3 I u o) = m ((c.tc : Thread nD τ).loc main_arg6) (ix3 n (0 : Fin 1) (0 : Fin 1)) := by
  rw [V_main_v18]
  rw [broadcastInDim_apply _ _ _ (ix3 I u o) (ix2 I o) (fun a => match a with | ⟨0, _⟩ => rfl | ⟨1, _⟩ => rfl)]
  rw [shapeCast_apply _ _ (ix2 I o) (ix1 n) (by
    rw [Shape.rowMajor_val_one, Shape.rowMajor_val_two]
    show n.val = I.val * 128 + o.val
    omega)]
  exact shapeCast_apply _ _ (ix1 n) (ix3 n (0 : Fin 1) (0 : Fin 1)) (by
    rw [Shape.rowMajor_val_three, Shape.rowMajor_val_one]
    show (n.val * 1 + 0) * 1 + 0 = n.val
    omega)

theorem iblk6_apply (c : Dev nD) (t : Fin cfg0.N) (ii : Fin 4) (u : Fin 1) (o : Fin 128) (n : Fin 16384)
    (hn : n.val = 128 * (4 * (t.val % 32) + ii.val) + o.val) :
    iblk m c 6 t (ix3 ii u o) = m ((c.tc : Thread nD τ).loc main_arg6) (ix3 n (0 : Fin 1) (0 : Fin 1)) := by
  have hI : 4 * (t.val % 32) + ii.val < 128 := by omega
  rw [← V_main_v18_apply m c ⟨4 * (t.val % 32) + ii.val, hI⟩ u o n hn]
  unfold Gen.iblk
  show V m c main_v18 (((cfg0.win 6).blk t).view.emb (ix3 ii u o)) = _
  refine congrArg _ (funext fun a => Fin.ext ?_)
  obtain ⟨e0, e1, e2⟩ := index6_facts t
  match a with
  | ⟨0, _⟩ => show win0_6.index t (0 : Fin 3) * 4 + 1 * ii.val = 4 * (t.val % 32) + ii.val; omega
  | ⟨1, _⟩ => show win0_6.index t (1 : Fin 3) * 1 + 1 * u.val = u.val; omega
  | ⟨2, _⟩ => show win0_6.index t (2 : Fin 3) * 128 + 1 * o.val = o.val; omega

/-! ## Window 0: blocks `(4, 1024, 1)` of the transposed input -/

/-- Window 0's block index at point `t`: `(t % 32, t / 32, 0)`. -/
theorem index0_facts : ∀ t : Fin cfg0.N, win0_0.index t (0 : Fin 3) = t.val % 32 ∧ win0_0.index t (1 : Fin 3) = t.val / 32 ∧ win0_0.index t (2 : Fin 3) = 0 :=
  (by decide +kernel : ∀ t : Fin grid0.N, _)

/-- The array window 0 stages, as the host operations build it from `main_arg0`. -/
theorem V_main_v1 (c : Dev nD) : (V m c main_v1 : S128x2048x1.Idx → Elt F .f32)
    = shapeCast S128x2048x1 (transpose S128x2048 [1, 0] (m ((c.tc : Thread nD τ).loc main_arg0)) transposes_S2048x128_S128x2048_1_0) shapeCasts_S128x2048_S128x2048x1 := by
  dsimp only [Gen.V, Gen.hostOps0]; after_results; rfl

/-- At `(I, B, 0)` the array holds the input's entry `(B, I)`. -/
theorem V_main_v1_apply (c : Dev nD) (I : Fin 128) (B : Fin 2048) (u : Fin 1) :
    V m c main_v1 (ix3 I B u) = m ((c.tc : Thread nD τ).loc main_arg0) (ix2 B I) := by
  rw [V_main_v1]
  rw [shapeCast_apply _ _ (ix3 I B u) (ix2 I B) (by
    rw [Shape.rowMajor_val_three, Shape.rowMajor_val_two]
    show I.val * 2048 + B.val = (I.val * 2048 + B.val) * 1 + u.val
    omega)]
  exact transpose_ix2_apply _ _ I B

theorem iblk0_apply (c : Dev nD) (t : Fin cfg0.N) (ii : Fin 4) (r : Fin 1024) (u : Fin 1) (B : Fin 2048)
    (hB : B.val = 1024 * (t.val / 32) + r.val) (I : Fin 128) (hI : I.val = 4 * (t.val % 32) + ii.val) :
    iblk m c 0 t (ix3 ii r u) = m ((c.tc : Thread nD τ).loc main_arg0) (ix2 B I) := by
  rw [← V_main_v1_apply m c I B u]
  unfold Gen.iblk
  show V m c main_v1 (((cfg0.win 0).blk t).view.emb (ix3 ii r u)) = _
  refine congrArg _ (funext fun a => Fin.ext ?_)
  obtain ⟨e0, e1, e2⟩ := index0_facts t
  match a with
  | ⟨0, _⟩ => show win0_0.index t (0 : Fin 3) * 4 + 1 * ii.val = I.val; omega
  | ⟨1, _⟩ => show win0_0.index t (1 : Fin 3) * 1024 + 1 * r.val = B.val; omega
  | ⟨2, _⟩ => show win0_0.index t (2 : Fin 3) * 1 + 1 * u.val = u.val; omega

end Cert.KernelIdeal.HostSide

end
-- ==== Proof.LastPoint.lean ====
import proofs.«141808_j22789096472783_2_alg».proof.Proof.PointSums
import proofs.«141808_j22789096472783_2_alg».proof.Proof.WindowBlocks

set_option maxRecDepth 16384

noncomputable section

namespace Cert.KernelIdeal.Hand

open Cert.KernelIdeal Cert.KernelIdeal.Gen Cert.KernelIdeal.HostSide Idealize.ShloMosaic.ValueIdx Cert.EdgeNets

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## At the last point of a batch block the block is the specification

The point at position `32·b + j` stages features `4·j … 4·j + 3`; edge slot `ii` of its blocks holds the
weights of network `128·(4·j + ii) + o` and the inputs `x(1024·b + R, 4·j + ii)`. So what it adds is four of
the specification's terms, and the 32 points of a batch block add all 128. -/

open scoped BigOperators

variable (m : (ℓ : Loc nD τ sig) → Buf (Elt Ideal) ℓ) (c : Dev nD)

theorem runSum_congr {Q Q' : ℕ → EReal} : ∀ (n : ℕ), (∀ j ≤ n, Q j = Q' j) → runSum Q n = runSum Q' n
  | 0, h => by rw [runSum, runSum, h 0 le_rfl]
  | n + 1, h => by rw [runSum, runSum, runSum_congr n (fun j hj => h j (Nat.le_succ_of_le hj)), h (n + 1) le_rfl]

/-- One edge slot of one point: the kernel-order network on the point's blocks is the specification's network
    of the slot's feature at the entry's input. -/
theorem edge_at (t : Fin cfg0.N) (ii : Fin 4) (R : Fin 1024) (o : Fin 128) (B : Fin 2048) (hB : B.val = 1024 * (t.val / 32) + R.val)
    (I : Fin 128) (hI : I.val = 4 * (t.val % 32) + ii.val) :
    kout (iblk m c 0 t (ix3 ii R (0 : Fin 1))) (fun h => iblk m c 1 t (ix3 ii h o)) (fun h => iblk m c 4 t (ix3 ii h o))
        (fun hp h => iblk m c 2 t (ix4 ii hp h o)) (fun h => iblk m c 5 t (ix3 ii h o)) (fun h => iblk m c 3 t (ix3 ii h o))
        (iblk m c 6 t (ix3 ii (0 : Fin 1) o))
      = netOut (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (net I o) ((m ((c.tc : Thread nD τ).loc main_arg0)) (ix2 B I)) := by
  have hn : (net I o).val = 128 * (4 * (t.val % 32) + ii.val) + o.val := by
    show 128 * I.val + o.val = _
    rw [hI]
  simp only [iblk0_apply m c t ii R (0 : Fin 1) B hB I hI, iblk1_apply m c t ii _ o (net I o) hn, iblk2_apply m c t ii _ _ o (net I o) hn,
    iblk3_apply m c t ii _ o (net I o) hn, iblk4_apply m c t ii _ o (net I o) hn, iblk5_apply m c t ii _ o (net I o) hn,
    iblk6_apply m c t ii (0 : Fin 1) o (net I o) hn]
  exact kout_eq_netOut (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (net I o) ((m ((c.tc : Thread nD τ).loc main_arg0)) (ix2 B I))

/-- The specification's term of feature `i` at entry `(B, o)` (zero past the last feature). -/
def featTerm (B : Fin 2048) (o : Fin 128) (i : ℕ) : EReal :=
  if h : i < 128 then netOut (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (net ⟨i, h⟩ o) ((m ((c.tc : Thread nD τ).loc main_arg0)) (ix2 B ⟨i, h⟩)) else 0

theorem pointAdds_eq (t : Fin cfg0.N) (R : Fin 1024) (o : Fin 128) (B : Fin 2048) (hB : B.val = 1024 * (t.val / 32) + R.val) :
    pointAdds m c t.val R o
      = (((Ideal.ofBits .f32 0x00000000#32 + featTerm m c B o (4 * (t.val % 32))) + featTerm m c B o (4 * (t.val % 32) + 1))
          + featTerm m c B o (4 * (t.val % 32) + 2)) + featTerm m c B o (4 * (t.val % 32) + 3) := by
  have hN : t.val < 64 := lt_of_lt_of_eq t.isLt (show cfg0.N = 64 from N_0)
  have h0 : 4 * (t.val % 32) < 128 := by omega
  have h1 : 4 * (t.val % 32) + 1 < 128 := by omega
  have h2 : 4 * (t.val % 32) + 2 < 128 := by omega
  have h3 : 4 * (t.val % 32) + 3 < 128 := by omega
  rw [pointAdds, dif_pos t.isLt, quad]
  rw [show (⟨t.val, t.isLt⟩ : Fin cfg0.N) = t from rfl]
  rw [edge_at m c t (0 : Fin 4) R o B hB ⟨4 * (t.val % 32), h0⟩ (by show 4 * (t.val % 32) = 4 * (t.val % 32) + 0; omega),
    edge_at m c t (1 : Fin 4) R o B hB ⟨4 * (t.val % 32) + 1, h1⟩ (by show 4 * (t.val % 32) + 1 = 4 * (t.val % 32) + 1; rfl),
    edge_at m c t (2 : Fin 4) R o B hB ⟨4 * (t.val % 32) + 2, h2⟩ (by show 4 * (t.val % 32) + 2 = 4 * (t.val % 32) + 2; rfl),
    edge_at m c t (3 : Fin 4) R o B hB ⟨4 * (t.val % 32) + 3, h3⟩ (by show 4 * (t.val % 32) + 3 = 4 * (t.val % 32) + 3; rfl)]
  rw [featTerm, dif_pos h0, featTerm, dif_pos h1, featTerm, dif_pos h2, featTerm, dif_pos h3]

/-- After the last point of a batch block, entry `(R, o)` of the block is the specification at `(1024·b + R, o)`. -/
theorem blockAt_last (t : Fin cfg0.N) (ht : t.val % 32 = 31) (R : Fin 1024) (o : Fin 128) (B : Fin 2048)
    (hB : B.val = 1024 * (t.val / 32) + R.val) :
    blockAt m c t.val t.isLt (ix2 R o) = layer (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (ix2 B o) := by
  have hN : t.val < 64 := lt_of_lt_of_eq t.isLt (show cfg0.N = 64 from N_0)
  rw [blockAt_apply, ht]
  have hQ : ∀ j ≤ 31, pointAdds m c (32 * (t.val / 32) + j) R o
      = (((Ideal.ofBits .f32 0x00000000#32 + featTerm m c B o (4 * j)) + featTerm m c B o (4 * j + 1))
          + featTerm m c B o (4 * j + 2)) + featTerm m c B o (4 * j + 3) := by
    intro j hj
    have hlt : 32 * (t.val / 32) + j < cfg0.N := lt_of_lt_of_eq (show 32 * (t.val / 32) + j < 64 by omega) (show (64 : ℕ) = cfg0.N from N_0.symm)
    have e := pointAdds_eq m c ⟨32 * (t.val / 32) + j, hlt⟩ R o B
      (by show B.val = 1024 * ((32 * (t.val / 32) + j) / 32) + R.val; rw [hB]; congr 2; omega)
    rw [show (⟨32 * (t.val / 32) + j, hlt⟩ : Fin cfg0.N).val = 32 * (t.val / 32) + j from rfl,
      show (32 * (t.val / 32) + j) % 32 = j by omega] at e
    exact e
  rw [runSum_congr 31 hQ, runSum_quads]
  show _ = Ideal.ofBits .f32 0x00000000#32 + ∑ i : Fin 128, netOut (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (net i o) ((m ((c.tc : Thread nD τ).loc main_arg0)) (ix2 B i))
  refine congrArg (fun s => Ideal.ofBits .f32 0x00000000#32 + s) (Finset.sum_congr rfl fun i _ => ?_)
  rw [featTerm, dif_pos i.isLt]

end Cert.KernelIdeal.Hand
end
-- ==== Proof.WholeResult.lean ====
import proofs.«141808_j22789096472783_2_alg».proof.Proof.FrameIdeal
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The output's blocks

The result is cut along its rows into two blocks of 1024 rows; the 32 grid points of batch block `b` all work on
block `b`, and the last of them, point `32 · b + 31`, writes it back. -/

/-- The output window's block index at point `t`: `(t / 32, 0)`. -/
theorem out_index_facts : ∀ t : Fin cfg0.N, win0_7.index t (0 : Fin 2) = t.val / 32 ∧ win0_7.index t (1 : Fin 2) = 0 :=
  (by decide +kernel : ∀ t : Fin grid0.N, _)

/-- An index of the result is in point `t`'s block iff each coordinate is in the block's range on its axis. -/
theorem mem_out_blk (t : Fin cfg0.N) (i : S2048x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v19).slice (win0_7.rect t)).set ↔ _
  rw [View.set_slice_whole, Rect.mem_set_unit]
  exact Iff.rfl

/-- Every row `1024 · b + R` of the result is in the block the point `32 · b + 31` writes back. -/
theorem covered (i : S2048x128.Idx) : ∃ t : Fin cfg0.N, (cfg0.win 7).flush t = true ∧ i ∈ ((cfg0.win 7).blk t).view.set := by
  have hi0 : (i 0).val < 2048 := (i 0).isLt
  have hi1 : (i 1).val < 128 := (i 1).isLt
  have hN : cfg0.N = 64 := N_0
  have hlt : 32 * ((i 0).val / 1024) + 31 < cfg0.N := by rw [hN]; omega
  refine ⟨⟨32 * ((i 0).val / 1024) + 31, hlt⟩, (flush0_7 _).mpr (by show (32 * ((i 0).val / 1024) + 31) % 32 = 31; omega), ?_⟩
  rw [mem_out_blk]
  obtain ⟨e0, e1⟩ := out_index_facts ⟨32 * ((i 0).val / 1024) + 31, hlt⟩
  have e0' : win0_7.index ⟨32 * ((i 0).val / 1024) + 31, hlt⟩ (0 : Fin 2) = (32 * ((i 0).val / 1024) + 31) / 32 := e0
  intro a
  match a with
  | ⟨0, _⟩ =>
    show win0_7.index ⟨32 * ((i 0).val / 1024) + 31, hlt⟩ (0 : Fin 2) * 1024 ≤ (i 0).val ∧ (i 0).val < win0_7.index ⟨32 * ((i 0).val / 1024) + 31, hlt⟩ (0 : Fin 2) * 1024 + 1024
    omega
  | ⟨1, _⟩ =>
    show win0_7.index ⟨32 * ((i 0).val / 1024) + 31, hlt⟩ (1 : Fin 2) * 128 ≤ (i 1).val ∧ (i 1).val < win0_7.index ⟨32 * ((i 0).val / 1024) + 31, hlt⟩ (1 : Fin 2) * 128 + 128
    omega

/-! ## From the blocks to the array -/

section OneCore

variable (c : Dev nD) (G : Buf (Elt F) ((c.tc : Thread nD τ).loc main_v19))

/-- What a last point of a batch block writes back is its block of `G`, when at every such point the staging buffer
    holds `G`'s rows of that batch block. -/
theorem flushed_eq
    (hlast : ∀ (t : Fin cfg0.N), t.val % 32 = 31 → ∀ (R : Fin 1024) (o : Fin 128) (B : Fin 2048), B.val = 1024 * (t.val / 32) + R.val →
      blockAt m c t.val t.isLt (ix2 R o) = G (ix2 B o))
    (t : Fin cfg0.N) (hf : (cfg0.win 7).flush t = true) :
    (dats m 0 c).flushed 7 t = ((cfg0.win 7).blk t).view.read (Elt F) G := by
  have h31 : t.val % 32 = 31 := (flush0_7 t).mp hf
  have hN : cfg0.N = 64 := N_0
  have ht : t.val < 64 := hN ▸ t.isLt
  show (cfg0.win 7).cut (grid0.coords t) ((dats m 0 c).after 7 t) = _
  rw [after_7]
  obtain ⟨e0, e1⟩ := out_index_facts t
  funext j
  have hj0 : (j 0).val < 1024 := (j 0).isLt
  have hj1 : (j 1).val < 128 := (j 1).isLt
  have hB : 1024 * (t.val / 32) + (j 0).val < 2048 := by omega
  show blockAt m c t.val t.isLt ((cfg0.win 7).xinj (grid0.coords t) j) = G (((cfg0.win 7).blk t).view.emb j)
  refine (congrArg _ ?_).trans ((hlast t h31 ⟨(j 0).val, hj0⟩ ⟨(j 1).val, hj1⟩ ⟨1024 * (t.val / 32) + (j 0).val, hB⟩ rfl).trans (congrArg _ ?_))
  · funext a
    match a with
    | ⟨0, _⟩ => rfl
    | ⟨1, _⟩ => rfl
  · funext a
    apply Fin.ext
    match a with
    | ⟨0, _⟩ => show 1024 * (t.val / 32) + (j 0).val = win0_7.index t (0 : Fin 2) * 1024 + 1 * (j 0).val; omega
    | ⟨1, _⟩ => show (j 1).val = win0_7.index t (1 : Fin 2) * 128 + 1 * (j 1).val; omega

/-- THE RESULT ARRAY after the run is `G`. -/
theorem final
    (hlast : ∀ (t : Fin cfg0.N), t.val % 32 = 31 → ∀ (R : Fin 1024) (o : Fin 128) (B : Fin 2048), B.val = 1024 * (t.val / 32) + R.val →
      blockAt m c t.val t.isLt (ix2 R o) = G (ix2 B o)) :
    (dats m 0 c).arrAt 7 cfg0.N = G :=
  (dats m 0 c).arrAt_eq_of_cover 7 G (flushed_eq m c G hlast) covered

end OneCore

/-! ## The run, read -/

/-- The run with its result named: the result array at `G`, the seven arguments unchanged. -/
theorem run (G : (c : Dev nD) → Buf (Elt F) ((c.tc : Thread nD τ).loc main_v19))
    (hlast : ∀ (c : Dev nD) (t : Fin cfg0.N), t.val % 32 = 31 → ∀ (R : Fin 1024) (o : Fin 128) (B : Fin 2048), B.val = 1024 * (t.val / 32) + R.val →
      blockAt m c t.val t.isLt (ix2 R o) = G c (ix2 B o)) :
    θ_run defs (onTc (τ := τ) (main (F := F))) ⟨m, fun _ => 0, ρ⟩ (fun r => ∀ c : Dev nD,
      r.2.mem ((c.tc : Thread nD τ).loc main_v19) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 7).trans (final m c (G c) (hlast c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Whole

end
-- ==== Proof.ReferenceIs.lean ====
import proofs.«141808_j22789096472783_2_alg».proof.Proof.Gen.ReferenceIdeal.Read
import Idealize.ShloMosaic.Lib.ValueIdx
import Idealize.ShloMosaic.Lib.IdealHost
import Idealize.ShloMosaic.PureOps.Ideal.Laws
import proofs.«141808_j22789096472783_2_alg».proof.Proof.EdgeNets

/-!
# The reference program's result is the specification

The reference repeats the transposed input 128 times along a new leading axis, flattens the two leading axes
into the network number, runs the three batched contractions with the activation between them, splits the network
number back into (feature, output), sums over the feature and transposes. Read at one entry (b, o) this is a zero
plus the sum over the features i of network 128·i + o at x(b, i): the function Cert.EdgeNets.layer.

The proof reads the program one stage at a time at an index given by its coordinates. The only arithmetic is the
row-major numbering of the two reshapes: row n of the flattened input holds feature n / 128, and entry (i, o) of the
split result is row 128·i + o.
-/

noncomputable section

namespace Cert.ReferenceIdeal.RefValue

open Cert.ReferenceIdeal Cert.ReferenceIdeal.Gen Cert.ReferenceIdeal.Read Cert.EdgeNets
open Idealize.ShloMosaic Idealize.ShloMosaic.ValueIdx
open scoped BigOperators

variable (x0 : (⟨S2048x128, .f32⟩ : BufTy).Contents (Elt Ideal))
  (x1 x2 : (⟨S16384x5x1, .f32⟩ : BufTy).Contents (Elt Ideal))
  (x3 : (⟨S16384x5x5, .f32⟩ : BufTy).Contents (Elt Ideal))
  (x4 : (⟨S16384x5x1, .f32⟩ : BufTy).Contents (Elt Ideal))
  (x5 : (⟨S16384x1x5, .f32⟩ : BufTy).Contents (Elt Ideal))
  (x6 : (⟨S16384x1x1, .f32⟩ : BufTy).Contents (Elt Ideal))

/-- The feature a network belongs to: network n reads feature n / 128. -/
def feat (n : Fin 16384) : Fin 128 := ⟨n.val / 128, by have := n.isLt; omega⟩

/-- The repeated, flattened input: row n, column b holds x(b, n / 128). -/
theorem v3_at (n : Fin 16384) (k : Fin 1) (b : Fin 2048) :
    val_main_v3 (F := Ideal) x0 (ix3 n k b) = x0 (ix2 b (feat n)) := by
  rw [val_main_v3_apply, val_main_v2_apply, val_main_v1_apply, val_main_v0_apply]
  refine congrArg x0 (funext fun a => Fin.ext ?_)
  have hn := n.isLt
  have hb := b.isLt
  match a with
  | ⟨0, _⟩ => show (n.val * 2048 + b.val) % 2048 = b.val; omega
  | ⟨1, _⟩ => show (n.val * 2048 + b.val) / 262144 = n.val / 128; omega

theorem lidx4 (n : Fin 16384) (h : Fin 5) (b : Fin 2048) (k : Fin 1) :
    lidx_main_v4 (ix3 n h b) k = ix3 n h k :=
  funext fun a => by match a with | ⟨0, _⟩ => rfl | ⟨1, _⟩ => rfl | ⟨2, _⟩ => rfl

theorem ridx4 (n : Fin 16384) (h : Fin 5) (b : Fin 2048) (k : Fin 1) :
    ridx_main_v4 (ix3 n h b) k = ix3 n k b :=
  funext fun a => by match a with | ⟨0, _⟩ => rfl | ⟨1, _⟩ => rfl | ⟨2, _⟩ => rfl

theorem idx5 (n : Fin 16384) (h : Fin 5) (b : Fin 2048) :
    idx_main_v5 (ix3 n h b) = ix3 n h 0 :=
  funext fun a => by match a with | ⟨0, _⟩ => rfl | ⟨1, _⟩ => rfl | ⟨2, _⟩ => rfl

/-- The first affine map at (n, h, b). -/
theorem v6_at (n : Fin 16384) (h : Fin 5) (b : Fin 2048) :
    val_main_v6 (F := Ideal) x0 x1 x2 (ix3 n h b)
      = (∑ k : Fin 1, x1 (ix3 n h k) * x0 (ix2 b (feat n))) + x2 (ix3 n h 0) := by
  rw [val_main_v6_apply, val_main_v4_apply, val_main_v5_apply, Ideal.addf_def, idx5]
  refine congrArg (· + _) (Finset.sum_congr rfl fun k _ => ?_)
  rw [lidx4, ridx4, v3_at]

/-- The first hidden layer at (n, h, b): the activation of the first affine map. -/
theorem v7_at (n : Fin 16384) (h : Fin 5) (b : Fin 2048) :
    val_main_v7 (F := Ideal) x0 x1 x2 (ix3 n h b) = hid0 x1 x2 n (x0 (ix2 b (feat n))) h := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, v6_at]
  rw [Ideal.mulf_def, Ideal.hostDivf_def, Ideal.addf_def, Ideal.hostUnary_exp_def, Ideal.hostNegf_def,
    Ideal.negf_def, Ideal.ofBits_def, Ideal.ofBits_one_f32]
  rfl

theorem lidx8 (n : Fin 16384) (h : Fin 5) (b : Fin 2048) (k : Fin 5) :
    lidx_main_v8 (ix3 n h b) k = ix3 n h k :=
  funext fun a => by match a with | ⟨0, _⟩ => rfl | ⟨1, _⟩ => rfl | ⟨2, _⟩ => rfl

theorem ridx8 (n : Fin 16384) (h : Fin 5) (b : Fin 2048) (k : Fin 5) :
    ridx_main_v8 (ix3 n h b) k = ix3 n k b :=
  funext fun a => by match a with | ⟨0, _⟩ => rfl | ⟨1, _⟩ => rfl | ⟨2, _⟩ => rfl

theorem idx9 (n : Fin 16384) (h : Fin 5) (b : Fin 2048) :
    idx_main_v9 (ix3 n h b) = ix3 n h 0 :=
  funext fun a => by match a with | ⟨0, _⟩ => rfl | ⟨1, _⟩ => rfl | ⟨2, _⟩ => rfl

/-- The second affine map at (n, h, b). -/
theorem v10_at (n : Fin 16384) (h : Fin 5) (b : Fin 2048) :
    val_main_v10 (F := Ideal) x0 x1 x2 x3 x4 (ix3 n h b)
      = (∑ k : Fin 5, x3 (ix3 n h k) * hid0 x1 x2 n (x0 (ix2 b (feat n))) k) + x4 (ix3 n h 0) := by
  rw [val_main_v10_apply, val_main_v8_apply, val_main_v9_apply, Ideal.addf_def, idx9]
  refine congrArg (· + _) (Finset.sum_congr rfl fun k _ => ?_)
  rw [lidx8, ridx8, v7_at]

/-- The second hidden layer at (n, h, b). -/
theorem v11_at (n : Fin 16384) (h : Fin 5) (b : Fin 2048) :
    val_main_v11 (F := Ideal) x0 x1 x2 x3 x4 (ix3 n h b) = hid1 x1 x2 x3 x4 n (x0 (ix2 b (feat n))) h := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply, v10_at]
  rw [Ideal.mulf_def, Ideal.hostDivf_def, Ideal.addf_def, Ideal.hostUnary_exp_def, Ideal.hostNegf_def,
    Ideal.negf_def, Ideal.ofBits_def, Ideal.ofBits_one_f32]
  rfl

theorem lidx12 (n : Fin 16384) (h : Fin 1) (b : Fin 2048) (k : Fin 5) :
    lidx_main_v12 (ix3 n h b) k = ix3 n 0 k :=
  funext fun a => by
    match a with
    | ⟨0, _⟩ => rfl
    | ⟨1, _⟩ => exact Fin.ext (by have := h.isLt; show h.val = 0; omega)
    | ⟨2, _⟩ => rfl

theorem ridx12 (n : Fin 16384) (h : Fin 1) (b : Fin 2048) (k : Fin 5) :
    ridx_main_v12 (ix3 n h b) k = ix3 n k b :=
  funext fun a => by match a with | ⟨0, _⟩ => rfl | ⟨1, _⟩ => rfl | ⟨2, _⟩ => rfl

theorem idx13 (n : Fin 16384) (h : Fin 1) (b : Fin 2048) :
    idx_main_v13 (ix3 n h b) = ix3 n 0 0 :=
  funext fun a => by match a with | ⟨0, _⟩ => rfl | ⟨1, _⟩ => rfl | ⟨2, _⟩ => rfl

/-- The read-out at (n, 0, b): the network's output at x(b, n / 128). -/
theorem v14_at (n : Fin 16384) (h : Fin 1) (b : Fin 2048) :
    val_main_v14 (F := Ideal) x0 x1 x2 x3 x4 x5 x6 (ix3 n h b)
      = netOut x1 x2 x3 x4 x5 x6 n (x0 (ix2 b (feat n))) := by
  rw [val_main_v14_apply, val_main_v12_apply, val_main_v13_apply, Ideal.addf_def, idx13]
  unfold netOut
  refine congrArg (· + _) (Finset.sum_congr rfl fun k _ => ?_)
  rw [lidx12, ridx12, v11_at]

/-- Row 128·i + o of the read-out is entry (i, o) of the split array. -/
theorem idx15 (i o : Fin 128) (b : Fin 2048) :
    idx_main_v15 (ix3 i o b) = ix3 (net i o) 0 b := by
  have hi := i.isLt
  have ho := o.isLt
  have hb := b.isLt
  refine funext fun a => Fin.ext ?_
  match a with
  | ⟨0, _⟩ => show ((i.val * 128 + o.val) * 2048 + b.val) / 2048 = 128 * i.val + o.val; omega
  | ⟨1, _⟩ => rfl
  | ⟨2, _⟩ => show ((i.val * 128 + o.val) * 2048 + b.val) % 2048 = b.val; omega

theorem feat_net (i o : Fin 128) : feat (net i o) = i := by
  have ho := o.isLt
  refine Fin.ext ?_
  show (128 * i.val + o.val) / 128 = i.val
  omega

theorem idx16 (o : Fin 128) (b : Fin 2048) (k : Fin 128) :
    idx_main_v16 (ix2 o b) k = ix3 k o b :=
  funext fun a => by match a with | ⟨0, _⟩ => rfl | ⟨1, _⟩ => rfl | ⟨2, _⟩ => rfl

theorem idx17 (b : Fin 2048) (o : Fin 128) :
    idx_main_v17 (ix2 b o) = ix2 o b :=
  funext fun a => by match a with | ⟨0, _⟩ => rfl | ⟨1, _⟩ => rfl

/-- THE RESULT of the reference program is the layer. -/
theorem result_is_layer (x0 : (⟨S2048x128, .f32⟩ : BufTy).Contents (Elt Ideal))
    (x1 x2 : (⟨S16384x5x1, .f32⟩ : BufTy).Contents (Elt Ideal))
    (x3 : (⟨S16384x5x5, .f32⟩ : BufTy).Contents (Elt Ideal))
    (x4 : (⟨S16384x5x1, .f32⟩ : BufTy).Contents (Elt Ideal))
    (x5 : (⟨S16384x1x5, .f32⟩ : BufTy).Contents (Elt Ideal))
    (x6 : (⟨S16384x1x1, .f32⟩ : BufTy).Contents (Elt Ideal)) :
    Cert.ReferenceIdeal.Read.val_main_v17 (F := Ideal) x0 x1 x2 x3 x4 x5 x6
      = Cert.EdgeNets.layer x1 x2 x3 x4 x5 x6 x0 := by
  funext j
  obtain ⟨b, o, rfl⟩ : ∃ b o, j = ix2 b o := ⟨j 0, j 1, eq_ix2 j⟩
  rw [val_main_v17_apply, idx17, val_main_v16_apply, val_main_cst_apply, Ideal.ofBits_def]
  unfold layer
  refine congrArg (_ + ·) (Finset.sum_congr rfl fun i _ => ?_)
  rw [idx16, val_main_v15_apply, idx15, v14_at, feat_net]

end Cert.ReferenceIdeal.RefValue

end
-- ==== Proof.lean ====
/-
  The layer of per-edge scalar networks: out(b, o) = ∑ over the 128 input features i of the network numbered
  128·i + o applied to x(b, i), each network 1 → 5 → 5 → 1 with the activation v · 1/(1 + e^(−v)) after its two
  hidden layers.

  The kernel walks a grid of 2 batch blocks × 32 blocks of four features. At a point it clears the [1024,128]
  output block if the feature block is the first, then in four trips of 256 rows adds, per row and output column,
  the four staged networks' outputs (each a chain of multiply-adds, bias first) to what the block holds; the block
  is written back after the 32nd feature block. The reference computes all 16384 networks on the whole batch with
  three batched products and sums over the features.

  At the ideal instance both are the same function of the arguments (`Cert.EdgeNets.layer`): the activation is
  one function on both sides (the kernel's logistic IS 1/(1 + e^(−v)) there), and the two sides differ only in
  the order and grouping of sums and products of extended reals, which are commutative and associative, and in
  zeros added; no distributive law is used, so the inputs' finiteness is never needed.

  The frames: each trip is run once over a symbolic trip number; the loop goes by the invariant "the earlier trips'
  pieces written over what the block held at the loop's entry"; the body is run in its two cases (a point that
  starts a batch block, a later one), and the output block's contents follow by recursion over the grid points.
  The kernel's value: one trip's stored tile read at an entry is "what was there plus the four networks"
  (TripValue), four trips cover the block (ChunkSums), the points of a batch block accumulate (PointSums), the
  staged blocks are the arguments' entries (WindowBlocks), the last point of a batch block holds the
  specification (LastPoint), and the written-back blocks tile the result (WholeResult). The reference's value is
  read one operation at a time (ReferenceIs).
-/
import proofs.«141808_j22789096472783_2_alg».proof.Defs
import proofs.«141808_j22789096472783_2_alg».proof.Proof.Gen.Kernel
import proofs.«141808_j22789096472783_2_alg».proof.Proof.Gen.KernelIdeal
import proofs.«141808_j22789096472783_2_alg».proof.Proof.Gen.ReferenceIdeal
import proofs.«141808_j22789096472783_2_alg».proof.Proof.Gen.Pre_finite_inputs
import proofs.«141808_j22789096472783_2_alg».proof.Proof.FrameBits
import proofs.«141808_j22789096472783_2_alg».proof.Proof.LastPoint
import proofs.«141808_j22789096472783_2_alg».proof.Proof.WholeResult
import proofs.«141808_j22789096472783_2_alg».proof.Proof.ReferenceIs
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at `layer` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.EdgeNets.layer (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg0)),
    Cert.KernelIdeal.Whole.run m ρ _ (fun c t ht R o B hB => Cert.KernelIdeal.Hand.blockAt_last m c t ht R o B hB), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.ReferenceIdeal.Read.val_main_v17_eq _ _ _ _ _ _ _).trans (Cert.ReferenceIdeal.RefValue.result_is_layer _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
